-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S1024x3072 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S1x3072 : Shape := ⟨2, ![1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x2048x16x64 : Shape := ⟨4, ![2, 2048, 16, 64]⟩
abbrev S1x1024 : Shape := ⟨2, ![1, 1024]⟩

abbrev nBuf : Space → Nat
  | .hbm => 20
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x3072, .bf16⟩
  | .hbm, ⟨6, _⟩ => ⟨S1024x1024, .bf16⟩
  | .hbm, ⟨7, _⟩ => ⟨S4096x1024, .f32⟩
  | .hbm, ⟨8, _⟩ => ⟨S4096x3072, .bf16⟩
  | .hbm, ⟨9, _⟩ => ⟨S2x2048x16x192, .bf16⟩
  | .hbm, ⟨10, _⟩ => ⟨S2x16x2048x192, .bf16⟩
  | .hbm, ⟨11, _⟩ => ⟨S2x16x2048x64, .bf16⟩
  | .hbm, ⟨12, _⟩ => ⟨S2x16x2048x64, .bf16⟩
  | .hbm, ⟨13, _⟩ => ⟨S2x16x2048x64, .bf16⟩
  | .hbm, ⟨14, _⟩ => ⟨S2x16x2048x2048, .f32⟩
  | .hbm, ⟨15, _⟩ => ⟨S2x16x2048x64, .bf16⟩
  | .hbm, ⟨16, _⟩ => ⟨S2x2048x16x64, .bf16⟩
  | .hbm, ⟨17, _⟩ => ⟨S4096x1024, .bf16⟩
  | .hbm, ⟨18, _⟩ => ⟨S4096x1024, .f32⟩
  | .hbm, ⟨19, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S512x3072, .bf16⟩
  | .local _ .vmem, ⟨5, _⟩ => ⟨S512x3072, .bf16⟩
  | .local _ .vmem, ⟨6, _⟩ => ⟨S1x1x512x64, .bf16⟩
  | .local _ .vmem, ⟨7, _⟩ => ⟨S1x1x512x64, .bf16⟩
  | .local _ .vmem, ⟨8, _⟩ => ⟨S1x1x2048x64, .bf16⟩
  | .local _ .vmem, ⟨9, _⟩ => ⟨S1x1x2048x64, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x1x512x2048, .f32⟩
  | .local _ .vmem, ⟨13, _⟩ => ⟨S1x1x512x2048, .f32⟩
  | .local _ .vmem, ⟨14, _⟩ => ⟨S1x1x512x64, .bf16⟩
  | .local _ .vmem, ⟨15, _⟩ => ⟨S1x1x512x64, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1024, .f32⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 16, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1x512x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x16x192 : S4096x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  transposes_S2x16x2048x64_S2x2048x16x64_0_2_1_3 : S2x16x2048x64.Transposes [0, 2, 1, 3] S2x2048x16x64
  shapeCasts_S2x2048x16x64_S4096x1024 : S2x2048x16x64.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S2x16x2048x64.size a
  hwx1_0 : ∀ i : grid1.Coords, EltTy.bits .bf16 = 32 ∨ (Rect.block (s := S2x16x2048x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .bf16 = 32 ∨ (Rect.block (s := S2x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x2048.size a ≤ S2x16x2048x2048.size a
  hwx1_3 : ∀ i : grid1.Coords, EltTy.bits .f32 = 32 ∨ (Rect.block (s := S2x16x2048x2048) S1x1x512x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512x64.size a ≤ S2x16x2048x64.size a
  hwx1_4 : ∀ i : grid1.Coords, EltTy.bits .bf16 = 32 ∨ (Rect.block (s := S2x16x2048x64) S1x1x512x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_0) S1x1x512x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9_1) S1x1x512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v11) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x16x192, .f32⟩
  | .hbm, ⟨10, _⟩ => ⟨S2x16x2048x192, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | .hbm, ⟨33, _⟩ => ⟨S2x2048x16x64, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.KernelRun.lean ====
/-
  The idealized kernel's whole run, read at its last boundary.

  The program is seven segments: a stretch of host operations, the projection region, a stretch (reshape, transpose,
  three slices), the attention region, a stretch (transpose, reshape), the output-projection region, and a last
  reshape. The contents of a core's buffers at the eight boundaries are a fold from the launch memory: a stretch
  applies its operations in order; a region replaces its arrays by what its write-backs leave and keeps every other
  buffer. Every weakly fair execution terminates, and in every final state each unscoped buffer of each core holds
  the fold's last contents. The two results are then read off that fold, and the arguments walk back to the launch
  memory because nothing writes them.
-/
import proofs.«152384_j17437567222132_2_alg».proof.Proof.Gen.KernelIdeal.Frame

noncomputable section

namespace Cert.Attn.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A final memory agrees, on core `c`, with the contents after the last segment at every unscoped buffer. -/
def AtEnd (c : Dev nD) (s : MemSt nD τ sig (Elt F)) : Prop :=
  ∀ b ∈ Pipeline.ucRefs τ sig, s.mem (((c : Thread nD τ)).1, b) = W7 m ρ c b

set_option backward.isDefEq.respectTransparency.types false in
/-- Every weakly fair execution of @main terminates, nothing faulting, and every final memory is `AtEnd` on every core. -/
theorem run_boundary : θ_run defs (onTc (τ := τ) (main (F := F))) ⟨m, fun _ => 0, ρ⟩ (fun r => ∀ c : Dev nD, AtEnd m ρ c r.2) :=
  Pipeline.θ_run_regions_kit (pcfgs (F := F)) adm (pdats m ρ) () cellOf_inj emb₁ defs₀ 𝒱₀ L lv m ρ main (segs m ρ)
    -- @main is the segments' run
    (fun c Q => by rw [main_run m ρ c])
    -- the three pipelines are entered once each
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' own; no core needs a ghost resource besides
    (hu₀ := by
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    -- each segment starts from what the one before leaves; the last leaves the final contents, the generator register, nothing owed
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hheld, Hprng, Howes⟩
      isplitr [Howes]
      · isplitl [Hheld]
        · iexact Hheld
        · iexact Hprng
      · iexact Howes⟩)
    -- at launch each core holds its unscoped buffers at the launch memory, its generator register, and owes nothing
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hprng, -⟩, -⟩
      imodintro
      isplitl [Hheld]
      · iexact Hheld
      isplitl [Hprng]
      · iexists _
        iexact Hprng
      · iexists ∅
        iexact Howes)
    (QY := AtEnd m ρ)
    -- buffers held whole at a valuation are read off any state they are valid in
    (hfin := fun c s' => by
      iintro ⟨⟨Hheld, -⟩, Hstate⟩
      unfold StableHlo.held
      imodintro
      iapply (pointsTo_read_all (Pipeline.ucRefs τ sig) (fun b => (((c : Thread nD τ)).1, b)) (W7 m ρ c) s')
      isplitl [Hheld] <;> iassumption)
    (hQ := fun s h => h)

/-- The run with the two results at the last boundary's contents and the arguments as launched. -/
theorem run : θ_run defs (onTc (τ := τ) (main (F := F))) ⟨m, fun _ => 0, ρ⟩ (fun r => ∀ c : Dev nD,
      r.2.mem ((c.tc : Thread nD τ).loc main_v13) = W7 m ρ c (Proc.devRef .tc main_v13)
      ∧ r.2.mem ((c.tc : Thread nD τ).loc main_v9_0) = W7 m ρ c (Proc.devRef .tc main_v9_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v13 (by decide)),
     h c _ (mem_uc main_v9_0 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c)⟩)
    (run_boundary m ρ)

end Cert.Attn.KRun

end
-- ==== Proof.Spec.lean ====
/-
  The attention block as functions on the extended reals, index by index.

  An affine map of rows: (x W + b) at (r, e) is the sum over k of x (r, k) W (k, e), plus b e.
  Attention weights, for any extents: with s (b, h, i, j) = (sum over d of q (b, h, i, d) k (b, h, j, d)) times the scale 1/8, the
  weight at (b, h, i, j) is exp (s (b, h, i, j) - max over j' of s (b, h, i, j')) divided by the sum over j' of
  those exponentials; the maximum is taken from minus infinity.
  Weighted values: (a v) at (b, h, i, d) is the sum over j of a (b, h, i, j) v (b, h, j, d).
-/
import Idealize.ShloMosaic.Lib.ValueIdx
import Idealize.ShloMosaic.PureOps.Ideal.Laws

noncomputable section

namespace Cert.Attn

open Idealize.ShloMosaic Idealize.ShloMosaic.ValueIdx
open scoped BigOperators

/-- Rows of `x` times `W`, plus the bias `b`. -/
def affine {M K N : Nat} (x : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, x (ix2 (i 0) k) * W (ix2 k (i 1))) + b (ix1 (i 1))

theorem affine_apply {M K N : Nat} (x : (⟨2, ![M, K]⟩ : Shape).Idx → EReal) (W : (⟨2, ![K, N]⟩ : Shape).Idx → EReal)
    (b : (⟨1, ![N]⟩ : Shape).Idx → EReal) (r : Fin M) (e : Fin N) :
    affine x W b (ix2 r e) = (∑ k : Fin K, x (ix2 r k) * W (ix2 k e)) + b (ix1 e) := rfl

variable {A B Tq Tk D : Nat}

/-- The scaled score of query row `i` against key row `j` in head `(b, h)`. -/
def score (q : (⟨4, ![A, B, Tq, D]⟩ : Shape).Idx → EReal) (k : (⟨4, ![A, B, Tk, D]⟩ : Shape).Idx → EReal)
    (b : Fin A) (h : Fin B) (i : Fin Tq) (j : Fin Tk) : EReal :=
  (∑ d : Fin D, q (ix4 b h i d) * k (ix4 b h j d)) * Ideal.ofBits .f32 0x3E000000#32

/-- The largest score of query row `i`, from minus infinity. -/
def rowMax (q : (⟨4, ![A, B, Tq, D]⟩ : Shape).Idx → EReal) (k : (⟨4, ![A, B, Tk, D]⟩ : Shape).Idx → EReal)
    (b : Fin A) (h : Fin B) (i : Fin Tq) : EReal :=
  (Finset.univ : Finset (Fin Tk)).fold max (Ideal.ofBits .f32 0xFF800000#32) (fun j => score q k b h i j)

/-- The exponential of a score less its row's maximum. -/
def expScore (q : (⟨4, ![A, B, Tq, D]⟩ : Shape).Idx → EReal) (k : (⟨4, ![A, B, Tk, D]⟩ : Shape).Idx → EReal)
    (b : Fin A) (h : Fin B) (i : Fin Tq) (j : Fin Tk) : EReal :=
  Ideal.exp (score q k b h i j - rowMax q k b h i)

/-- The attention weights: each row's exponentials over their sum. -/
def attn (q : (⟨4, ![A, B, Tq, D]⟩ : Shape).Idx → EReal) (k : (⟨4, ![A, B, Tk, D]⟩ : Shape).Idx → EReal) :
    (⟨4, ![A, B, Tq, Tk]⟩ : Shape).Idx → EReal :=
  fun i => Ideal.div (expScore q k (i 0) (i 1) (i 2) (i 3)) (∑ j : Fin Tk, expScore q k (i 0) (i 1) (i 2) j)

theorem attn_apply (q : (⟨4, ![A, B, Tq, D]⟩ : Shape).Idx → EReal) (k : (⟨4, ![A, B, Tk, D]⟩ : Shape).Idx → EReal)
    (b : Fin A) (h : Fin B) (i : Fin Tq) (j : Fin Tk) :
    attn q k (ix4 b h i j) = Ideal.div (expScore q k b h i j) (∑ j' : Fin Tk, expScore q k b h i j') := rfl

/-- The weights applied to the values. -/
def av (a : (⟨4, ![A, B, Tq, Tk]⟩ : Shape).Idx → EReal) (v : (⟨4, ![A, B, Tk, D]⟩ : Shape).Idx → EReal) :
    (⟨4, ![A, B, Tq, D]⟩ : Shape).Idx → EReal :=
  fun i => ∑ j : Fin Tk, a (ix4 (i 0) (i 1) (i 2) j) * v (ix4 (i 0) (i 1) j (i 3))

theorem av_apply (a : (⟨4, ![A, B, Tq, Tk]⟩ : Shape).Idx → EReal) (v : (⟨4, ![A, B, Tk, D]⟩ : Shape).Idx → EReal)
    (b : Fin A) (h : Fin B) (i : Fin Tq) (d : Fin D) :
    av a v (ix4 b h i d) = ∑ j : Fin Tk, a (ix4 b h i j) * v (ix4 b h j d) := rfl

end Cert.Attn

end
-- ==== Proof.KernelTerms.lean ====
/-
  The attention block as the idealized kernel computes it, as whole-array functions of the five arguments: the input
  with its leading axes merged goes through the affine projection; the rows are split into sixteen heads of 192
  columns, the head axis is brought forward, and queries, keys and values are the three 64-column thirds; the weights
  are the attention weights of queries against keys; the weights applied to the values are brought back to rows and
  go through the output projection. A change of float format is the identity on the extended reals.
-/
import proofs.«152384_j17437567222132_2_alg».proof.Proof.Spec
import proofs.«152384_j17437567222132_2_alg».proof.Proof.Gen.KernelIdeal

noncomputable section

namespace Cert.Attn.KTerms

open Idealize.ShloMosaic Cert.KernelIdeal Cert.KernelIdeal.Gen

variable (x : FVec Ideal S2x2048x1024 .f32) (W : FVec Ideal S1024x3072 .f32) (b : FVec Ideal S3072 .f32)
  (Wo : FVec Ideal S1024x1024 .f32) (bo : FVec Ideal S1024 .f32)

/-- The projection of the merged input rows. -/
def projRows : S4096x3072.Idx → EReal :=
  affine (shapeCast S4096x1024 x shapeCasts_S2x2048x1024_S4096x1024)
    (truncf .bf16 W bitsLt_bf16_f32 : FVec Ideal S1024x3072 .bf16) b

/-- The projection split into heads, the head axis brought forward. -/
def headsArr : S2x16x2048x192.Idx → EReal :=
  transpose S2x16x2048x192 [0, 2, 1, 3] (shapeCast S2x2048x16x192 (projRows x W b) shapeCasts_S4096x3072_S2x2048x16x192)
    transposes_S2x2048x16x192_S2x16x2048x192_0_2_1_3

/-- The first third of each head's columns. -/
def queries : S2x16x2048x64.Idx → EReal :=
  extractStridedSlice S2x16x2048x64 ![0, 0, 0, 0] (headsArr x W b) slices_S2x16x2048x192_S2x16x2048x64_0_0_0_0

/-- The second third of each head's columns. -/
def keys : S2x16x2048x64.Idx → EReal :=
  extractStridedSlice S2x16x2048x64 ![0, 0, 0, 64] (headsArr x W b) slices_S2x16x2048x192_S2x16x2048x64_0_0_0_64

/-- The last third of each head's columns. -/
def values : S2x16x2048x64.Idx → EReal :=
  extractStridedSlice S2x16x2048x64 ![0, 0, 0, 128] (headsArr x W b) slices_S2x16x2048x192_S2x16x2048x64_0_0_0_128

/-- The attention weights: the second result. -/
def weights : S2x16x2048x2048.Idx → EReal := attn (queries x W b) (keys x W b)

/-- The weights applied to the values. -/
def weighted : S2x16x2048x64.Idx → EReal := av (weights x W b) (values x W b)

/-- The weighted values as rows, through the output projection, split into batch and sequence: the first result. -/
def outArr : S2x2048x1024.Idx → EReal :=
  shapeCast S2x2048x1024
    (affine
      (shapeCast S4096x1024
        (transpose S2x2048x16x64 [0, 2, 1, 3] (weighted x W b) transposes_S2x16x2048x64_S2x2048x16x64_0_2_1_3)
        shapeCasts_S2x2048x16x64_S4096x1024)
      (truncf .bf16 Wo bitsLt_bf16_f32 : FVec Ideal S1024x1024 .bf16) bo)
    shapeCasts_S4096x1024_S2x2048x1024

end Cert.Attn.KTerms

end
-- ==== Proof.KernelFold.lean ====
/-
  The contents of a core's buffers where the idealized kernel's three regions are entered and where the program
  returns, read back through the stretches of host operations between them: through a stretch a buffer is the
  operation's function of the buffers before the stretch, or unchanged if no operation of the stretch writes it;
  through a region a buffer that is not one of the region's arrays is unchanged.
-/
import proofs.«152384_j17437567222132_2_alg».proof.Proof.Gen.KernelIdeal.Frame

noncomputable section

namespace Cert.Attn.KRun

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-! ## Where the projection region is entered -/

/-- The input with its two leading axes merged. -/
theorem entry0_rows : W1 m ρ c (Proc.devRef .tc main_v2)
    = shapeCast S4096x1024 (m ((c : Thread nD τ).loc main_arg0)) shapeCasts_S2x2048x1024_S4096x1024 := by
  show StableHlo.after hostOps0 (W0 m ρ c) (Proc.devRef .tc main_v2) = _
  after_results
  all_goals rfl

/-- The projection's weights in the narrower format. -/
theorem entry0_weights : W1 m ρ c (Proc.devRef .tc main_v0)
    = truncf .bf16 (m ((c : Thread nD τ).loc main_arg1)) bitsLt_bf16_f32 := by
  show StableHlo.after hostOps0 (W0 m ρ c) (Proc.devRef .tc main_v0) = _
  after_results
  all_goals rfl

/-- The projection's bias as launched. -/
theorem entry0_bias : W1 m ρ c (Proc.devRef .tc main_arg2) = m ((c : Thread nD τ).loc main_arg2) := by
  show StableHlo.after hostOps0 (W0 m ρ c) (Proc.devRef .tc main_arg2) = _
  after_results
  all_goals rfl

/-! ## Where the attention region is entered: the projection's rows split into heads, the head axis brought
    forward, and queries, keys and values cut out of the last axis -/

/-- The queries. -/
theorem entry1_queries : W3 m ρ c (Proc.devRef .tc main_v6)
    = extractStridedSlice S2x16x2048x64 ![0, 0, 0, 0]
        (transpose S2x16x2048x192 [0, 2, 1, 3]
          (shapeCast S2x2048x16x192 (W2 m ρ c (Proc.devRef .tc main_v3)) shapeCasts_S4096x3072_S2x2048x16x192)
          transposes_S2x2048x16x192_S2x16x2048x192_0_2_1_3)
        slices_S2x16x2048x192_S2x16x2048x64_0_0_0_0 := by
  show StableHlo.after hostOps1 (W2 m ρ c) (Proc.devRef .tc main_v6) = _
  after_results
  all_goals rfl

/-- The keys. -/
theorem entry1_keys : W3 m ρ c (Proc.devRef .tc main_v7)
    = extractStridedSlice S2x16x2048x64 ![0, 0, 0, 64]
        (transpose S2x16x2048x192 [0, 2, 1, 3]
          (shapeCast S2x2048x16x192 (W2 m ρ c (Proc.devRef .tc main_v3)) shapeCasts_S4096x3072_S2x2048x16x192)
          transposes_S2x2048x16x192_S2x16x2048x192_0_2_1_3)
        slices_S2x16x2048x192_S2x16x2048x64_0_0_0_64 := by
  show StableHlo.after hostOps1 (W2 m ρ c) (Proc.devRef .tc main_v7) = _
  after_results
  all_goals rfl

/-- The values. -/
theorem entry1_values : W3 m ρ c (Proc.devRef .tc main_v8)
    = extractStridedSlice S2x16x2048x64 ![0, 0, 0, 128]
        (transpose S2x16x2048x192 [0, 2, 1, 3]
          (shapeCast S2x2048x16x192 (W2 m ρ c (Proc.devRef .tc main_v3)) shapeCasts_S4096x3072_S2x2048x16x192)
          transposes_S2x2048x16x192_S2x16x2048x192_0_2_1_3)
        slices_S2x16x2048x192_S2x16x2048x64_0_0_0_128 := by
  show StableHlo.after hostOps1 (W2 m ρ c) (Proc.devRef .tc main_v8) = _
  after_results
  all_goals rfl

/-! ## Where the output-projection region is entered -/

/-- The weighted values with the sequence axis brought forward again and heads and leading axes merged. -/
theorem entry2_rows : W5 m ρ c (Proc.devRef .tc main_v11)
    = shapeCast S4096x1024
        (transpose S2x2048x16x64 [0, 2, 1, 3] (W4 m ρ c (Proc.devRef .tc main_v9_1)) transposes_S2x16x2048x64_S2x2048x16x64_0_2_1_3)
        shapeCasts_S2x2048x16x64_S4096x1024 := by
  show StableHlo.after hostOps2 (W4 m ρ c) (Proc.devRef .tc main_v11) = _
  after_results
  all_goals rfl

/-- The output projection's weights in the narrower format: written by the first stretch, by nothing after it. -/
theorem entry2_weights : W5 m ρ c (Proc.devRef .tc main_v1)
    = truncf .bf16 (m ((c : Thread nD τ).loc main_arg3)) bitsLt_bf16_f32 :=
  calc W5 m ρ c (Proc.devRef .tc main_v1)
    _ = W4 m ρ c (Proc.devRef .tc main_v1) := by
        show StableHlo.after hostOps2 (W4 m ρ c) (Proc.devRef .tc main_v1) = _
        after_results
        all_goals rfl
    _ = W3 m ρ c (Proc.devRef .tc main_v1) := W4_of_ne m ρ c main_v1 (by decide)
    _ = W2 m ρ c (Proc.devRef .tc main_v1) := by
        show StableHlo.after hostOps1 (W2 m ρ c) (Proc.devRef .tc main_v1) = _
        after_results
        all_goals rfl
    _ = W1 m ρ c (Proc.devRef .tc main_v1) := W2_of_ne m ρ c main_v1 (by decide)
    _ = truncf .bf16 (m ((c : Thread nD τ).loc main_arg3)) bitsLt_bf16_f32 := by
        show StableHlo.after hostOps0 (W0 m ρ c) (Proc.devRef .tc main_v1) = _
        after_results
        all_goals rfl

/-- The output projection's bias as launched: nothing writes it. -/
theorem entry2_bias : W5 m ρ c (Proc.devRef .tc main_arg4) = m ((c : Thread nD τ).loc main_arg4) :=
  calc W5 m ρ c (Proc.devRef .tc main_arg4)
    _ = W4 m ρ c (Proc.devRef .tc main_arg4) := by
        show StableHlo.after hostOps2 (W4 m ρ c) (Proc.devRef .tc main_arg4) = _
        after_results
        all_goals rfl
    _ = W3 m ρ c (Proc.devRef .tc main_arg4) := W4_of_ne m ρ c main_arg4 (by decide)
    _ = W2 m ρ c (Proc.devRef .tc main_arg4) := by
        show StableHlo.after hostOps1 (W2 m ρ c) (Proc.devRef .tc main_arg4) = _
        after_results
        all_goals rfl
    _ = W1 m ρ c (Proc.devRef .tc main_arg4) := W2_of_ne m ρ c main_arg4 (by decide)
    _ = m ((c : Thread nD τ).loc main_arg4) := by
        show StableHlo.after hostOps0 (W0 m ρ c) (Proc.devRef .tc main_arg4) = _
        after_results
        all_goals rfl

/-! ## Where the program returns -/

/-- The first result: the output rows split back into batch and sequence. -/
theorem result_out : W7 m ρ c (Proc.devRef .tc main_v13)
    = shapeCast S2x2048x1024 (W6 m ρ c (Proc.devRef .tc main_v12)) shapeCasts_S4096x1024_S2x2048x1024 := by
  show StableHlo.after hostOps3 (W6 m ρ c) (Proc.devRef .tc main_v13) = _
  after_results
  all_goals rfl

/-- The second result: the attention region's weights array, which nothing after that region writes. -/
theorem result_attn : W7 m ρ c (Proc.devRef .tc main_v9_0) = W4 m ρ c (Proc.devRef .tc main_v9_0) :=
  calc W7 m ρ c (Proc.devRef .tc main_v9_0)
    _ = W6 m ρ c (Proc.devRef .tc main_v9_0) := by
        show StableHlo.after hostOps3 (W6 m ρ c) (Proc.devRef .tc main_v9_0) = _
        after_results
        all_goals rfl
    _ = W5 m ρ c (Proc.devRef .tc main_v9_0) := W6_of_ne m ρ c main_v9_0 (by decide)
    _ = W4 m ρ c (Proc.devRef .tc main_v9_0) := by
        show StableHlo.after hostOps2 (W4 m ρ c) (Proc.devRef .tc main_v9_0) = _
        after_results
        all_goals rfl

end Cert.Attn.KRun

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.Region0.lean ====
/-
  The first projection of the attention block. One grid point multiplies a block of 512 rows of the input by the
  whole weight matrix and adds the bias row; the eight row blocks tile the 4096 rows, so the output array ends at the
  affine map of the input array: at (r, e) the sum over k of x (r, k) W (k, e), plus b e.
-/
import proofs.«152384_j17437567222132_2_alg».proof.Proof.Spec
import proofs.«152384_j17437567222132_2_alg».proof.Proof.LibPlainDot
import proofs.«152384_j17437567222132_2_alg».proof.Proof.LibRowBroadcasts
import proofs.«152384_j17437567222132_2_alg».proof.Proof.LibMergeRows
import proofs.«152384_j17437567222132_2_alg».proof.Proof.Gen.KernelIdeal.Frame

noncomputable section

namespace Cert.Attn

open Idealize.ShloMosaic Idealize.ShloMosaic.TcCoe Idealize.SL.Sem Idealize.ShloMosaic.ValueIdx Cert.KernelIdeal Cert.KernelIdeal.Gen
open scoped BigOperators

/-- What one grid point computes from its blocks: the affine map of the row block. -/
theorem body0 (v0 : Vec Ideal S512x1024 .f32) (v3 : Vec Ideal S1024x3072 .bf16) (v6 : Vec Ideal S3072 .f32) :
    k0_pay1 (F := Ideal) v0 v3 v6 = affine v0 v3 v6 := by
  funext j
  obtain ⟨p, q, rfl⟩ : ∃ (p : Fin 512) (q : Fin 3072), j = ix2 p q := ⟨j 0, j 1, eq_ix2 j⟩
  unfold k0_pay1
  rw [truncf_apply, addf_apply, affine_apply]
  simp only [shapeCast_self]
  refine congrArg₂ (· + ·) ?_ ?_
  · refine (Cert.Lib.PlainDot.matmul_zero_apply dot_S512x1024_S1024x3072_S512x3072_1_0_0_1_n_n_wf none
      (truncf .bf16 v0 bitsLt_bf16_f32) v3 p q).trans ?_
    exact Finset.sum_congr rfl fun k _ => by rw [truncf_apply]
  · exact (Cert.Lib.Rows.bcastRow_apply _ broadcasts_S1x3072_S512x3072 p q).trans
      (Cert.Lib.MergeRows.row_apply v6 shapeCasts_S3072_S1x3072 q)

/-! ## From the row blocks to the array -/

theorem qkv_zeros2 : (![0, 0] : Fin 2 → Nat) = fun _ => 0 := funext fun a => by fin_cases a <;> rfl

theorem qkv_zeros1 : (![0] : Fin 1 → Nat) = fun _ => 0 := funext fun a => by fin_cases a; rfl

/-- The block indices over the grid: point t reads row block t of the input and writes row block t of the output;
    the weight matrix and the bias are read whole at every point. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt0 (t : Fin cfg0.N) : t.val < 8 := Nat.lt_of_lt_of_eq t.isLt N_0

variable (V : (c : Dev nD) → (b : Ref sig .tc) → Buf (Elt Ideal) ((c : Thread nD τ).loc b))

/-- Row p of the input block at point t is row 512 t + p of the input array. -/
theorem iblk0_rows (c : Dev nD) (t : Fin cfg0.N) (p : Fin 512) (k : Fin 1024) (r : Fin 4096)
    (hr : r.val = 512 * t.val + p.val) :
    (iblk0 (F := Ideal) V c 0 t : Vec Ideal S512x1024 .f32) (ix2 p k)
      = (V c main_v2 : S4096x1024.Idx → EReal) (ix2 r k) := by
  obtain ⟨e0, e1, -⟩ := block_index0 t
  unfold iblk0
  rw [View.read_apply]
  show V c main_v2 _ = V c main_v2 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The weight block at every point is the whole weight matrix. -/
theorem iblk0_weights (c : Dev nD) (t : Fin cfg0.N) :
    (iblk0 (F := Ideal) V c 1 t : Vec Ideal S1024x3072 .bf16) = (V c main_v0 : S1024x3072.Idx → EReal) := by
  obtain ⟨-, -, e0, e1, -⟩ := block_index0 t
  funext y
  unfold iblk0
  rw [View.read_apply]
  show V c main_v0 _ = V c main_v0 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 3072 + 1 * (y 1).val = (y 1).val; rw [e1]; omega

/-- The bias block at every point is the whole bias vector. -/
theorem iblk0_bias (c : Dev nD) (t : Fin cfg0.N) :
    (iblk0 (F := Ideal) V c 2 t : Vec Ideal S3072 .f32) = (V c main_arg2 : S3072.Idx → EReal) := by
  obtain ⟨-, -, -, -, e0, -⟩ := block_index0 t
  funext y
  unfold iblk0
  rw [View.read_apply]
  show V c main_arg2 _ = V c main_arg2 _
  congr 1
  funext a
  apply Fin.ext
  match a with
  | ⟨0, _⟩ => show win0_2.index t (0 : Fin 1) * 3072 + 1 * (y 0).val = (y 0).val; rw [e0]; omega

/-- What point t writes back is row block t of the affine map of the arrays. -/
theorem flushed0 (c : Dev nD) (t : Fin cfg0.N) :
    (dat0 (F := Ideal) V c).flushed 3 t
      = ((cfg0.win 3).blk t).view.read (Elt Ideal) (affine (V c main_v2) (V c main_v0) (V c main_arg2)) := by
  show (cfg0.win 3).cut (grid0.coords t) ((dat0 (F := Ideal) V c).after 3 t) = _
  rw [after0_3]
  unfold out0_3
  rw [View.canon_unit_zero qkv_zeros2]
  simp only [View.ld_unit_zero (S := S512x1024) qkv_zeros2, View.ld_unit_zero (S := S1024x3072) qkv_zeros2,
    View.ld_unit_zero (S := S3072) qkv_zeros1]
  rw [body0, iblk0_weights, iblk0_bias]
  obtain ⟨-, -, -, -, -, e0, e1⟩ := block_index0 t
  have ht := point_lt0 t
  funext y
  obtain ⟨p, q, rfl⟩ : ∃ (p : Fin 512) (q : Fin 3072), y = ix2 p q := ⟨y 0, y 1, eq_ix2 y⟩
  have hemb : ((cfg0.win 3).blk t).view.emb (ix2 p q)
      = (ix2 (⟨512 * t.val + p.val, by omega⟩ : Fin 4096) q : S4096x3072.Idx) := by
    funext a
    apply Fin.ext
    match a with
    | ⟨0, _⟩ => show win0_3.index t (0 : Fin 2) * 512 + 1 * p.val = 512 * t.val + p.val; rw [e0]; omega
    | ⟨1, _⟩ => show win0_3.index t (1 : Fin 2) * 3072 + 1 * q.val = q.val; rw [e1]; omega
  rw [View.read_apply]
  show affine (iblk0 (F := Ideal) V c 0 t) (V c main_v0) (V c main_arg2) (ix2 p q)
    = affine (V c main_v2) (V c main_v0) (V c main_arg2) (((cfg0.win 3).blk t).view.emb (ix2 p q))
  rw [hemb, affine_apply, affine_apply]
  refine congrArg (· + _) (Finset.sum_congr rfl fun k _ => ?_)
  rw [iblk0_rows V c t p k ⟨512 * t.val + p.val, by omega⟩ rfl]

/-- An index of the output array is in point t's block iff each coordinate is in the block's range on its axis. -/
theorem mem_block0 (t : Fin cfg0.N) (i : S4096x3072.Idx) :
    i ∈ ((cfg0.win 3).blk t).view.set
      ↔ ∀ a : Fin 2, win0_3.index t a * S512x3072.size a ≤ (i a).val
          ∧ (i a).val < win0_3.index t a * S512x3072.size a + S512x3072.size a := by
  show i ∈ ((View.whole main_v3).slice (win0_3.rect t)).set ↔ _
  rw [View.set_slice_whole, Rect.mem_set_unit]
  exact Iff.rfl

/-- Row r of the output array is written back by point r / 512. -/
theorem covered0 (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  have hN : cfg0.N = 8 := N_0
  let t : Fin cfg0.N := ⟨(i 0).val / 512, by rw [hN]; omega⟩
  obtain ⟨-, -, -, -, -, e0, e1⟩ := block_index0 t
  have e0' : win0_3.index t (0 : Fin 2) = (i 0).val / 512 := e0
  refine ⟨t, flush0_3 t, ?_⟩
  rw [mem_block0]
  intro a
  match a with
  | ⟨0, _⟩ =>
    show win0_3.index t (0 : Fin 2) * 512 ≤ (i 0).val ∧ (i 0).val < win0_3.index t (0 : Fin 2) * 512 + 512
    rw [e0']; omega
  | ⟨1, _⟩ =>
    show win0_3.index t (1 : Fin 2) * 3072 ≤ (i 1).val ∧ (i 1).val < win0_3.index t (1 : Fin 2) * 3072 + 3072
    rw [e1]; omega

/-- The output array of the first projection after its region: the affine map of the region's entry arrays. -/
theorem region0_array (c : Dev nD) :
    (dat0 (F := Ideal) V c).arrAt 3 cfg0.N = affine (V c main_v2) (V c main_v0) (V c main_arg2) :=
  (dat0 (F := Ideal) V c).arrAt_eq_of_cover 3 (affine (V c main_v2) (V c main_v0) (V c main_arg2))
    (fun t _ => flushed0 V c t) covered0

end Cert.Attn

end
-- ==== Proof.LibColBroadcast.lean ====
/-
  A column broadcast across the columns, read at an index.

  An `a × 1` column broadcast (as a vector broadcast) to `a × b` reads, at `(p, q)`, the column at `p`: the row
  coordinate is kept (the operand's axis 0 has the result's extent), the column coordinate is dropped (the operand's axis 1
  is a unit axis). For any element type and any extents; the companion of the row forms.
-/
import Idealize.ShloMosaic.Lib.Pipeline.Value
import Idealize.ShloMosaic.Lib.ValueIdx

noncomputable section

namespace Cert.Lib.Cols

open Idealize.ShloMosaic Idealize.ShloMosaic.ValueIdx

variable {a b : Nat}

/-- An `a × 1` column broadcast across `b` columns reads, at `(p, q)`, the column at `p`. -/
theorem bcastCol_apply {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else q.val
    rw [if_pos rfl]

/-- A length-`a` vector reshaped to an `a × 1` column reads, at `(p, 0)`, the vector at `p`. -/
theorem col_apply {α : Type} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-- A length-`a` vector broadcast along dimension 0 to an `a × 1` column reads, at `(p, 0)`, the vector at `p`. -/
theorem dimVec_apply {α : Type} (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p (0 : Fin 1)) = v (ix1 p) :=
  broadcastInDim_apply _ h v (ix2 p (0 : Fin 1)) (ix1 p) fun ax => by
    match ax with
    | ⟨0, _⟩ =>
      show p.val = if a = 1 then 0 else p.val
      split
      · have := p.isLt; omega
      · rfl

end Cert.Lib.Cols

end
-- ==== Proof.Body1Lemmas.lean ====
/-
  The pieces of the attention kernel's body, each read at an index, for any extents.

  A 1 × 1 × n × d block reshaped to n × d keeps its row-major order, and the leading unit axes contribute nothing to a
  position: the reshaped block at (p, e) is the block at (0, 0, p, e); likewise back.
  A product [a, c] × [b, c] → [a, b] whose dimension numbers contract BOTH operands on their axis 1 reads, at result index
  (p, q) and contraction position k, the left operand at (p, k) and the right operand at (q, k): it is the sum over k of
  lhs (p, k) * rhs (q, k) — every query row against every key row.
  A maximum (from minus infinity) and a sum along axis 1 of an a × b array, read at row r, are the fold of max and the sum
  over that row's entries; reshaped to an a × 1 column and broadcast back to a × b they are read at every (r, j).
  So the kernel's chain — subtract the row maximum, exponentiate, divide by the row sum — is, entry by entry, the
  exponential of the entry less its row's maximum over the sum of those exponentials along the row.
-/
import proofs.«152384_j17437567222132_2_alg».proof.Proof.Spec
import proofs.«152384_j17437567222132_2_alg».proof.Proof.LibColBroadcast

noncomputable section

namespace Cert.Attn.Pieces

open Idealize.ShloMosaic Idealize.ShloMosaic.ValueIdx
open scoped BigOperators

/-! ## Leading unit axes -/

section UnitAxes
variable {n d : Nat}

/-- A 1 × 1 × n × d block reshaped to n × d reads, at (p, e), the block at (0, 0, p, e). -/
theorem dropUnits_apply {α : Type} (x : (⟨4, ![1, 1, n, d]⟩ : Shape).Idx → α)
    (h : (⟨4, ![1, 1, n, d]⟩ : Shape).ShapeCasts ⟨2, ![n, d]⟩) (p : Fin n) (e : Fin d) :
    shapeCast ⟨2, ![n, d]⟩ x h (ix2 p e) = x (ix4 (0 : Fin 1) (0 : Fin 1) p e) :=
  shapeCast_apply x h _ _ (by
    rw [Shape.rowMajor_val_two, Shape.rowMajor_val_four]
    show ((0 * 1 + 0) * n + p.val) * d + e.val = p.val * d + e.val
    simp only [Nat.zero_mul, Nat.zero_add])

/-- An n × d array reshaped to 1 × 1 × n × d reads, at (u, v, p, e), the array at (p, e). -/
theorem addUnits_apply {α : Type} (y : (⟨2, ![n, d]⟩ : Shape).Idx → α)
    (h : (⟨2, ![n, d]⟩ : Shape).ShapeCasts ⟨4, ![1, 1, n, d]⟩) (u v : Fin 1) (p : Fin n) (e : Fin d) :
    shapeCast ⟨4, ![1, 1, n, d]⟩ y h (ix4 u v p e) = y (ix2 p e) :=
  shapeCast_apply y h _ _ (by
    rw [Shape.rowMajor_val_two, Shape.rowMajor_val_four]
    show p.val * d + e.val = ((u.val * 1 + v.val) * n + p.val) * d + e.val
    have hu : u.val = 0 := by omega
    have hv : v.val = 0 := by omega
    simp only [hu, hv, Nat.zero_mul, Nat.zero_add])

end UnitAxes

/-! ## The product with the right operand contracted on its axis 1 -/

section RowsAgainstRows
variable {a c b : Nat}

/-- The dimension numbers of the product [a, c] × [b, c] → [a, b]: both operands contracted on axis 1, no batch axis. -/
abbrev tdims (wf : DotDims.WF ⟨2, ![a, c]⟩ ⟨2, ![b, c]⟩ ⟨2, ![a, b]⟩ [1] [1] [0] [0] [] []) :
    DotDims ⟨2, ![a, c]⟩ ⟨2, ![b, c]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, c]⟩ ⟨2, ![b, c]⟩ ⟨2, ![a, b]⟩ [1] [1] [0] [0] [] [])

/-- The left operand's row is the result's row. -/
theorem lhs_row (i : (⟨2, ![a, b]⟩ : Shape).Idx) (k : (tdims wf).contr.Idx) :
    ((tdims wf).lhsIdx i k 0).val = (i 0).val := by
  unfold DotDims.lhsIdx
  rw [dif_neg (show ¬(0 : Fin 2) ∈ (tdims wf).lhsBatch from List.not_mem_nil),
    dif_pos (show (0 : Fin 2) ∈ (tdims wf).lhsNonContracting from List.mem_singleton.mpr rfl)]
  rfl

/-- The left operand's column is the contraction position. -/
theorem lhs_col (i : (⟨2, ![a, b]⟩ : Shape).Idx) (k : (tdims wf).contr.Idx) :
    ((tdims wf).lhsIdx i k 1).val = (k ⟨0, Nat.one_pos⟩).val :=
  (tdims wf).lhsIdx_val_of_single rfl i k

/-- The right operand's row is the result's column. -/
theorem rhs_row (i : (⟨2, ![a, b]⟩ : Shape).Idx) (k : (tdims wf).contr.Idx) :
    ((tdims wf).rhsIdx i k 0).val = (i 1).val := by
  unfold DotDims.rhsIdx
  rw [dif_neg (show ¬(0 : Fin 2) ∈ (tdims wf).rhsBatch from List.not_mem_nil),
    dif_pos (show (0 : Fin 2) ∈ (tdims wf).rhsNonContracting from List.mem_singleton.mpr rfl)]
  rfl

/-- The right operand's column is the contraction position. -/
theorem rhs_col (i : (⟨2, ![a, b]⟩ : Shape).Idx) (k : (tdims wf).contr.Idx) :
    ((tdims wf).rhsIdx i k 1).val = (k ⟨0, Nat.one_pos⟩).val :=
  (tdims wf).rhsIdx_val_of_single rfl i k

/-- The product's sum at (p, q): over k, the left operand at (p, k) times the right operand at (q, k). -/
theorem tsum_apply {M : Type*} [AddCommMonoid M] [Mul M] (lhs : (⟨2, ![a, c]⟩ : Shape).Idx → M)
    (rhs : (⟨2, ![b, c]⟩ : Shape).Idx → M) (p : Fin a) (q : Fin b) :
    ∑ k : (tdims wf).contr.Idx, lhs ((tdims wf).lhsIdx (ix2 p q) k) * rhs ((tdims wf).rhsIdx (ix2 p q) k)
      = ∑ k : Fin c, lhs (ix2 p k) * rhs (ix2 q k) := by
  rw [← Equiv.sum_comp (contrEquiv1 (tdims wf) c rfl rfl).symm]
  refine Finset.sum_congr rfl fun k _ => ?_
  have hk := contrEquiv1_symm_val (tdims wf) c rfl rfl k
  have el : (tdims wf).lhsIdx (ix2 p q) ((contrEquiv1 (tdims wf) c rfl rfl).symm k) = ix2 p k :=
    funext fun ax => Fin.ext (by
      match ax with
      | ⟨0, _⟩ => exact lhs_row wf _ _
      | ⟨1, _⟩ => exact (lhs_col wf _ _).trans hk)
  have er : (tdims wf).rhsIdx (ix2 p q) ((contrEquiv1 (tdims wf) c rfl rfl).symm k) = ix2 q k :=
    funext fun ax => Fin.ext (by
      match ax with
      | ⟨0, _⟩ => exact rhs_row wf _ _
      | ⟨1, _⟩ => exact (rhs_col wf _ _).trans hk)
  rw [el, er]

/-- The kernel's product into a zero accumulator, at the exact values, read at (p, q). -/
theorem tmatmul_zero_apply {φ₁ φ₂ : FTy} (prec : Option ContractPrecision) (lhs : FVec Ideal ⟨2, ![a, c]⟩ φ₁)
    (rhs : FVec Ideal ⟨2, ![b, c]⟩ φ₂) (p : Fin a) (q : Fin b) :
    matmul (tdims wf) prec lhs rhs (constant ⟨2, ![a, b]⟩ .f32 0x00000000#32) (ix2 p q)
      = ∑ k : Fin c, lhs (ix2 p k) * rhs (ix2 q k) :=
  (Ideal.matmul_constant_zero_apply (tdims wf) prec lhs rhs (ix2 p q)).trans (tsum_apply wf lhs rhs p q)

end RowsAgainstRows

/-! ## Reductions along a row, kept as a column and broadcast back -/

section Rows
variable {a b : Nat}

/-- The maximum along axis 1 from minus infinity, at row r: the fold of max over the row's entries. -/
theorem rowMaximum_apply (s : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction (F := Ideal) .maximumf [1] ⟨1, ![a]⟩ s 0xFF800000#32 h hφ hacc (ix1 r)
      = (Finset.univ : Finset (Fin b)).fold max (Ideal.ofBits .f32 0xFF800000#32) (fun j => s (ix2 r j)) := by
  refine (Ideal.multiReduction_maximumf_single s 0xFF800000#32 h hφ hacc (ix1 r)).trans ?_
  refine congrArg (fun f => (Finset.univ : Finset (Fin b)).fold max (Ideal.ofBits .f32 0xFF800000#32) f) (funext fun j => ?_)
  exact congrArg s (funext fun ax => Fin.ext (by
    match ax with
    | ⟨0, _⟩ => rfl
    | ⟨1, _⟩ => rfl))

/-- The sum along axis 1 from zero, at row r: the sum of the row's entries. -/
theorem rowSum_apply (s : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ s 0x00000000#32 h hφ hacc (ix1 r) = ∑ j : Fin b, s (ix2 r j) := by
  refine (Ideal.multiReduction_add_single s 0x00000000#32 h hφ hacc (ix1 r)).trans ?_
  exact Finset.sum_congr rfl fun j _ => congrArg s (funext fun ax => Fin.ext (by
    match ax with
    | ⟨0, _⟩ => rfl
    | ⟨1, _⟩ => rfl))

/-- A length-a vector reshaped to an a × 1 column and broadcast across b columns reads, at (r, j), the vector at r. -/
theorem keepCol_apply {α : Type} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (r : Fin a) (j : Fin b) :
    broadcastTo ⟨2, ![a, b]⟩ (shapeCast ⟨2, ![a, 1]⟩ v hc) hb (ix2 r j) = v (ix1 r) :=
  (Cert.Lib.Cols.bcastCol_apply _ hb r j).trans (Cert.Lib.Cols.col_apply v hc r)

variable (s : FVec Ideal ⟨2, ![a, b]⟩ .f32) (hr : (⟨2, ![a, b]⟩ : Shape).Reduces [1] ⟨1, ![a]⟩)
  (hc : (⟨1, ![a]⟩ : Shape).ShapeCasts ⟨2, ![a, 1]⟩) (hb : (⟨2, ![a, 1]⟩ : Shape).Broadcasts ⟨2, ![a, b]⟩)
  (hφ : FKind.Formats .f32) (hmax : (0xFF800000#32 : BitVec 32) = FKind.maximumf.neutral .f32 hφ)
  (hadd : (0x00000000#32 : BitVec 32) = FKind.add.neutral .f32 hφ)

/-- Every entry less its row's maximum, exponentiated, as the kernel's operations. -/
def expRows : FVec Ideal ⟨2, ![a, b]⟩ .f32 :=
  exp (subf s (broadcastTo ⟨2, ![a, b]⟩
    (shapeCast ⟨2, ![a, 1]⟩ (multiReduction (F := Ideal) .maximumf [1] ⟨1, ![a]⟩ s 0xFF800000#32 hr hφ hmax) hc) hb))

/-- At (r, j): the exponential of the entry less the fold of max over row r. -/
theorem expRows_apply (r : Fin a) (j : Fin b) :
    expRows s hr hc hb hφ hmax (ix2 r j)
      = Ideal.exp (s (ix2 r j)
          - (Finset.univ : Finset (Fin b)).fold max (Ideal.ofBits .f32 0xFF800000#32) (fun j' => s (ix2 r j'))) :=
  congrArg (fun m => Ideal.exp (s (ix2 r j) - m))
    ((keepCol_apply _ hc hb r j).trans (rowMaximum_apply s hr hφ hmax r))

/-- Those exponentials over their row's sum, as the kernel's operations. -/
def softmaxRows : FVec Ideal ⟨2, ![a, b]⟩ .f32 :=
  divf (expRows s hr hc hb hφ hmax) (broadcastTo ⟨2, ![a, b]⟩
    (shapeCast ⟨2, ![a, 1]⟩
      (multiReduction (F := Ideal) .add [1] ⟨1, ![a]⟩ (expRows s hr hc hb hφ hmax) 0x00000000#32 hr hφ hadd) hc) hb)

/-- At (r, j): the exponential at (r, j) divided by the sum of row r's exponentials. -/
theorem softmaxRows_apply (r : Fin a) (j : Fin b) :
    softmaxRows s hr hc hb hφ hmax hadd (ix2 r j)
      = Ideal.div (expRows s hr hc hb hφ hmax (ix2 r j)) (∑ j' : Fin b, expRows s hr hc hb hφ hmax (ix2 r j')) :=
  congrArg (fun m => Ideal.div (expRows s hr hc hb hφ hmax (ix2 r j)) m)
    ((keepCol_apply _ hc hb r j).trans (rowSum_apply (expRows s hr hc hb hφ hmax) hr hφ hadd r))

end Rows

/-! ## The scaled scores -/

section Scores
variable {n m d : Nat}

/-- Query rows against key rows, scaled, as the kernel's operations: both blocks reshaped to matrices, the product
    contracted on both operands' axis 1 into the zero splat, times the splat of the scale. -/
def scores (q : FVec Ideal ⟨4, ![1, 1, n, d]⟩ .bf16) (k : FVec Ideal ⟨4, ![1, 1, m, d]⟩ .bf16)
    (hq : (⟨4, ![1, 1, n, d]⟩ : Shape).ShapeCasts ⟨2, ![n, d]⟩) (hk : (⟨4, ![1, 1, m, d]⟩ : Shape).ShapeCasts ⟨2, ![m, d]⟩)
    (wf : DotDims.WF ⟨2, ![n, d]⟩ ⟨2, ![m, d]⟩ ⟨2, ![n, m]⟩ [1] [1] [0] [0] [] []) : FVec Ideal ⟨2, ![n, m]⟩ .f32 :=
  mulf (matmul (tdims wf) none (shapeCast ⟨2, ![n, d]⟩ q hq) (shapeCast ⟨2, ![m, d]⟩ k hk)
      (constant ⟨2, ![n, m]⟩ .f32 0x00000000#32))
    (broadcast ⟨2, ![n, m]⟩ (Scalar.ofBits .f32 0x3E000000#32))

/-- At (r, j): the specification's score of query row r against key row j. -/
theorem scores_apply (q : FVec Ideal ⟨4, ![1, 1, n, d]⟩ .bf16) (k : FVec Ideal ⟨4, ![1, 1, m, d]⟩ .bf16)
    (hq : (⟨4, ![1, 1, n, d]⟩ : Shape).ShapeCasts ⟨2, ![n, d]⟩) (hk : (⟨4, ![1, 1, m, d]⟩ : Shape).ShapeCasts ⟨2, ![m, d]⟩)
    (wf : DotDims.WF ⟨2, ![n, d]⟩ ⟨2, ![m, d]⟩ ⟨2, ![n, m]⟩ [1] [1] [0] [0] [] []) (r : Fin n) (j : Fin m) :
    scores q k hq hk wf (ix2 r j) = score q k (0 : Fin 1) (0 : Fin 1) r j := by
  refine congrArg (fun t => t * Ideal.ofBits .f32 0x3E000000#32) ?_
  refine (tmatmul_zero_apply wf none _ _ r j).trans ?_
  exact Finset.sum_congr rfl fun e _ => by rw [dropUnits_apply, dropUnits_apply]

end Scores

end Cert.Attn.Pieces

end
-- ==== Proof.Body1.lean ====
/-
  What one grid point of the attention kernel computes from its blocks: the stored weight block is the attention
  weights of the query block against the key block, and the stored value block is those weights applied to the
  value block.

  The weights before their last reshape are, entry by entry, the row softmax of the scaled scores: the kernel's chain
  is the scores (query rows against key rows, times the scale), then each entry less its row's maximum, exponentiated,
  over its row's sum of those exponentials. The last reshape only adds two leading unit axes. The value block is the plain
  product of those weights (narrowing them changes nothing at the exact values) with the value block reshaped to a
  matrix: at (r, e) the sum over k of the weight (r, k) times the value (k, e).
-/
import proofs.«152384_j17437567222132_2_alg».proof.Proof.Spec
import proofs.«152384_j17437567222132_2_alg».proof.Proof.LibPlainDot
import proofs.«152384_j17437567222132_2_alg».proof.Proof.Body1Lemmas
import proofs.«152384_j17437567222132_2_alg».proof.Proof.Gen.KernelIdeal.Skeleton

noncomputable section

namespace Cert.Attn

open Idealize.ShloMosaic Idealize.ShloMosaic.ValueIdx Cert.KernelIdeal Cert.KernelIdeal.Gen

/-- The bit pattern the row maximum starts from is the one a maximum reduction of this format must start from. -/
private theorem max_start : (0xFF800000#32 : BitVec 32) = FKind.maximumf.neutral .f32 (Or.inl rfl) := rfl

/-- The bit pattern the row sum starts from is the one a sum reduction must start from. -/
private theorem add_start : (0x00000000#32 : BitVec 32) = FKind.add.neutral .f32 (Or.inl rfl) := rfl

/-- The weights before their last reshape are the row softmax of the scaled scores, as the kernel's operations. -/
private theorem pay1_eq (v0 : Vec Ideal S1x1x512x64 .bf16) (v2 : Vec Ideal S1x1x2048x64 .bf16) :
    k1_pay1 (F := Ideal) v0 v2
      = Pieces.softmaxRows
          (Pieces.scores v0 v2 shapeCasts_S1x1x512x64_S512x64 shapeCasts_S1x1x2048x64_S2048x64
            dot_S512x64_S2048x64_S512x2048_1_1_0_0_n_n_wf)
          reduces_S512x2048_S512 shapeCasts_S512_S512x1 broadcasts_S512x1_S512x2048 (Or.inl rfl) max_start add_start := rfl

/-- The weights before their last reshape, at (r, j): the attention weight of query row r on key row j. -/
theorem body1_weights_apply (v0 : Vec Ideal S1x1x512x64 .bf16) (v2 : Vec Ideal S1x1x2048x64 .bf16) (r : Fin 512) (j : Fin 2048) :
    k1_pay1 (F := Ideal) v0 v2 (ix2 r j) = attn v0 v2 (ix4 (0 : Fin 1) (0 : Fin 1) r j) := by
  rw [pay1_eq, Pieces.softmaxRows_apply, attn_apply]
  simp only [Pieces.expRows_apply, Pieces.scores_apply]
  rfl

theorem body1_attn (v0 : Vec Ideal S1x1x512x64 .bf16) (v2 : Vec Ideal S1x1x2048x64 .bf16) :
    k1_pay2 (F := Ideal) v0 v2 = attn v0 v2 := by
  funext i
  obtain ⟨u, v, r, j, rfl⟩ : ∃ (u v : Fin 1) (r : Fin 512) (j : Fin 2048), i = ix4 u v r j :=
    ⟨i 0, i 1, i 2, i 3, eq_ix4 i⟩
  obtain rfl : u = 0 := Subsingleton.elim _ _
  obtain rfl : v = 0 := Subsingleton.elim _ _
  unfold k1_pay2
  exact (Pieces.addUnits_apply _ shapeCasts_S512x2048_S1x1x512x2048 0 0 r j).trans (body1_weights_apply v0 v2 r j)

theorem body1_vals (v0 : Vec Ideal S1x1x512x64 .bf16) (v2 : Vec Ideal S1x1x2048x64 .bf16) (v4 : Vec Ideal S1x1x2048x64 .bf16) :
    k1_pay3 (F := Ideal) v0 v2 v4 = av (attn v0 v2) v4 := by
  funext i
  obtain ⟨u, v, r, e, rfl⟩ : ∃ (u v : Fin 1) (r : Fin 512) (e : Fin 64), i = ix4 u v r e :=
    ⟨i 0, i 1, i 2, i 3, eq_ix4 i⟩
  obtain rfl : u = 0 := Subsingleton.elim _ _
  obtain rfl : v = 0 := Subsingleton.elim _ _
  unfold k1_pay3
  refine (Pieces.addUnits_apply _ shapeCasts_S512x64_S1x1x512x64 0 0 r e).trans ?_
  refine (Cert.Lib.PlainDot.matmul_zero_apply dot_S512x2048_S2048x64_S512x64_1_0_0_1_n_n_wf none
    (truncf .bf16 (k1_pay1 (F := Ideal) v0 v2) bitsLt_bf16_f32)
    (shapeCast S2048x64 v4 shapeCasts_S1x1x2048x64_S2048x64) r e).trans ?_
  rw [av_apply]
  refine Finset.sum_congr rfl fun k _ => ?_
  rw [Pieces.dropUnits_apply]
  exact congrArg (fun w => w * v4 (ix4 (0 : Fin 1) (0 : Fin 1) k e)) (body1_weights_apply v0 v2 r k)

end Cert.Attn

end
-- ==== Proof.Region1Blocks.lean ====
/-
  Region 1 (attention), the pure part and the block reads.

  A block of the attention weights is the attention weights of the blocks: the weight at (b, h, i, j) reads only
  row (b, h, i) of the queries and the rows (b, h, ·) of the keys, so a query block of rows of head (b, h) against the
  whole key slab of that head gives the same weights as the full arrays at the rows the block holds; likewise the
  weighted values read only row (b, h, i) of the weights and the rows (b, h, ·) of the values.

  Then the region's windows: at grid point t the block indices are (t / 64, t / 4 % 16, t % 4, 0) for the query, weight
  and value-output windows and (t / 64, t / 4 % 16, 0, 0) for the key and value slabs (decided over the 128 points), so each
  window's block at t, read at a block index, is its array at the block index times the block size plus the index.
-/
import proofs.«152384_j17437567222132_2_alg».proof.Proof.Spec
import proofs.«152384_j17437567222132_2_alg».proof.Proof.Body1
import proofs.«152384_j17437567222132_2_alg».proof.Proof.Gen.KernelIdeal.Frame
import Idealize.ShloMosaic.Lib.Pipeline.Value

noncomputable section

namespace Cert.Attn

open Idealize.ShloMosaic Idealize.ShloMosaic.TcCoe Idealize.SL.Sem Idealize.ShloMosaic.ValueIdx Cert.KernelIdeal Cert.KernelIdeal.Gen
open scoped BigOperators

/-! ## A block of the spec is the spec of the blocks -/

section Pure
variable {A B Tq Tk D Tq' : Nat}

/-- Scores of a block of query rows of head (b, h) against that head's keys are the full arrays' scores at those rows. -/
theorem score_block (Q : (⟨4, ![A, B, Tq, D]⟩ : Shape).Idx → EReal) (K : (⟨4, ![A, B, Tk, D]⟩ : Shape).Idx → EReal)
    (qb : (⟨4, ![1, 1, Tq', D]⟩ : Shape).Idx → EReal) (kb : (⟨4, ![1, 1, Tk, D]⟩ : Shape).Idx → EReal)
    (b : Fin A) (h : Fin B) (row : Fin Tq' → Fin Tq)
    (hq : ∀ r d, qb (ix4 0 0 r d) = Q (ix4 b h (row r) d))
    (hk : ∀ j d, kb (ix4 0 0 j d) = K (ix4 b h j d)) (r : Fin Tq') (j : Fin Tk) :
    score qb kb 0 0 r j = score Q K b h (row r) j := by
  unfold score
  refine congrArg (· * _) ?_
  exact Finset.sum_congr rfl fun d _ => by rw [hq, hk]

theorem rowMax_block (Q : (⟨4, ![A, B, Tq, D]⟩ : Shape).Idx → EReal) (K : (⟨4, ![A, B, Tk, D]⟩ : Shape).Idx → EReal)
    (qb : (⟨4, ![1, 1, Tq', D]⟩ : Shape).Idx → EReal) (kb : (⟨4, ![1, 1, Tk, D]⟩ : Shape).Idx → EReal)
    (b : Fin A) (h : Fin B) (row : Fin Tq' → Fin Tq)
    (hq : ∀ r d, qb (ix4 0 0 r d) = Q (ix4 b h (row r) d))
    (hk : ∀ j d, kb (ix4 0 0 j d) = K (ix4 b h j d)) (r : Fin Tq') :
    rowMax qb kb 0 0 r = rowMax Q K b h (row r) := by
  unfold rowMax
  have e : (fun j => score qb kb 0 0 r j) = fun j => score Q K b h (row r) j :=
    funext fun j => score_block Q K qb kb b h row hq hk r j
  rw [e]

theorem expScore_block (Q : (⟨4, ![A, B, Tq, D]⟩ : Shape).Idx → EReal) (K : (⟨4, ![A, B, Tk, D]⟩ : Shape).Idx → EReal)
    (qb : (⟨4, ![1, 1, Tq', D]⟩ : Shape).Idx → EReal) (kb : (⟨4, ![1, 1, Tk, D]⟩ : Shape).Idx → EReal)
    (b : Fin A) (h : Fin B) (row : Fin Tq' → Fin Tq)
    (hq : ∀ r d, qb (ix4 0 0 r d) = Q (ix4 b h (row r) d))
    (hk : ∀ j d, kb (ix4 0 0 j d) = K (ix4 b h j d)) (r : Fin Tq') (j : Fin Tk) :
    expScore qb kb 0 0 r j = expScore Q K b h (row r) j := by
  unfold expScore
  rw [score_block Q K qb kb b h row hq hk r j, rowMax_block Q K qb kb b h row hq hk r]

/-- The weights of a block of query rows of head (b, h) against that head's keys are the full arrays' weights at those rows. -/
theorem attn_block (Q : (⟨4, ![A, B, Tq, D]⟩ : Shape).Idx → EReal) (K : (⟨4, ![A, B, Tk, D]⟩ : Shape).Idx → EReal)
    (qb : (⟨4, ![1, 1, Tq', D]⟩ : Shape).Idx → EReal) (kb : (⟨4, ![1, 1, Tk, D]⟩ : Shape).Idx → EReal)
    (b : Fin A) (h : Fin B) (row : Fin Tq' → Fin Tq)
    (hq : ∀ r d, qb (ix4 0 0 r d) = Q (ix4 b h (row r) d))
    (hk : ∀ j d, kb (ix4 0 0 j d) = K (ix4 b h j d)) (r : Fin Tq') (j : Fin Tk) :
    attn qb kb (ix4 0 0 r j) = attn Q K (ix4 b h (row r) j) := by
  rw [attn_apply, attn_apply, expScore_block Q K qb kb b h row hq hk r j]
  refine congrArg _ ?_
  exact Finset.sum_congr rfl fun j' _ => expScore_block Q K qb kb b h row hq hk r j'

/-- The weighted values of a block: row (b, h, row r) of the weights against head (b, h)'s values. -/
theorem av_block (W : (⟨4, ![A, B, Tq, Tk]⟩ : Shape).Idx → EReal) (Vv : (⟨4, ![A, B, Tk, D]⟩ : Shape).Idx → EReal)
    (wb : (⟨4, ![1, 1, Tq', Tk]⟩ : Shape).Idx → EReal) (vb : (⟨4, ![1, 1, Tk, D]⟩ : Shape).Idx → EReal)
    (b : Fin A) (h : Fin B) (row : Fin Tq' → Fin Tq)
    (hw : ∀ r j, wb (ix4 0 0 r j) = W (ix4 b h (row r) j))
    (hv : ∀ j d, vb (ix4 0 0 j d) = Vv (ix4 b h j d)) (r : Fin Tq') (d : Fin D) :
    av wb vb (ix4 0 0 r d) = av W Vv (ix4 b h (row r) d) := by
  rw [av_apply, av_apply]
  exact Finset.sum_congr rfl fun j _ => by rw [hw, hv]

end Pure

/-! ## The region's windows at a grid point -/

section Windows

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The grid has 2 * 16 * 4 points. -/
theorem N1 : cfg1.N = 128 := by decide

/-- The printed index maps, decided over the grid: point t is head (t / 64, t / 4 % 16) and query block t % 4; the
    query, weight and value-output windows move with all three, the key and value slabs with the head only. -/
theorem idx_facts : ∀ t : Fin cfg1.N,
    (win1_0.index t (0 : Fin 4) = t.val / 64 ∧ win1_0.index t (1 : Fin 4) = t.val / 4 % 16
      ∧ win1_0.index t (2 : Fin 4) = t.val % 4 ∧ win1_0.index t (3 : Fin 4) = 0)
    ∧ (win1_1.index t (0 : Fin 4) = t.val / 64 ∧ win1_1.index t (1 : Fin 4) = t.val / 4 % 16
      ∧ win1_1.index t (2 : Fin 4) = 0 ∧ win1_1.index t (3 : Fin 4) = 0)
    ∧ (win1_2.index t (0 : Fin 4) = t.val / 64 ∧ win1_2.index t (1 : Fin 4) = t.val / 4 % 16
      ∧ win1_2.index t (2 : Fin 4) = 0 ∧ win1_2.index t (3 : Fin 4) = 0)
    ∧ (win1_3.index t (0 : Fin 4) = t.val / 64 ∧ win1_3.index t (1 : Fin 4) = t.val / 4 % 16
      ∧ win1_3.index t (2 : Fin 4) = t.val % 4 ∧ win1_3.index t (3 : Fin 4) = 0)
    ∧ (win1_4.index t (0 : Fin 4) = t.val / 64 ∧ win1_4.index t (1 : Fin 4) = t.val / 4 % 16
      ∧ win1_4.index t (2 : Fin 4) = t.val % 4 ∧ win1_4.index t (3 : Fin 4) = 0) :=
  (by decide +kernel : ∀ t : Fin grid1.N, _)

theorem point_lt (t : Fin cfg1.N) : t.val < 128 := lt_of_lt_of_eq t.isLt N1

/-- The batch coordinate of grid point t. -/
def headB (t : Fin cfg1.N) : Fin 2 := ⟨t.val / 64, by have h := point_lt t; omega⟩
/-- The head coordinate of grid point t. -/
def headH (t : Fin cfg1.N) : Fin 16 := ⟨t.val / 4 % 16, by omega⟩
/-- Row r of grid point t's query block is row 512 (t % 4) + r of the head. -/
def qRow (t : Fin cfg1.N) (r : Fin 512) : Fin 2048 := ⟨512 * (t.val % 4) + r.val, by omega⟩

/-- The query block at point t, at a block index, is the query array at the head of t and the block's rows. -/
theorem qblk_apply (c : Dev nD) (t : Fin cfg1.N) (x : S1x1x512x64.Idx) (k : S2x16x2048x64.Idx)
    (h0 : (k 0).val = t.val / 64) (h1 : (k 1).val = t.val / 4 % 16)
    (h2 : (k 2).val = 512 * (t.val % 4) + (x 2).val) (h3 : (k 3).val = (x 3).val) :
    (iblk1 V c 0 t : Vec Ideal S1x1x512x64 .bf16) x = (V c main_v6 : S2x16x2048x64.Idx → EReal) k := by
  obtain ⟨⟨e0, e1, e2, e3⟩, -⟩ := idx_facts t
  have hx0 : (x 0).val < 1 := (x 0).isLt
  have hx1 : (x 1).val < 1 := (x 1).isLt
  unfold iblk1
  rw [View.read_apply]
  show V c main_v6 _ = V c main_v6 _
  refine congrArg _ ?_
  funext a
  apply Fin.ext
  match a with
  | ⟨0, _⟩ => show win1_0.index t (0 : Fin 4) * 1 + 1 * (x 0).val = (k 0).val; omega
  | ⟨1, _⟩ => show win1_0.index t (1 : Fin 4) * 1 + 1 * (x 1).val = (k 1).val; omega
  | ⟨2, _⟩ => show win1_0.index t (2 : Fin 4) * 512 + 1 * (x 2).val = (k 2).val; omega
  | ⟨3, _⟩ => show win1_0.index t (3 : Fin 4) * 64 + 1 * (x 3).val = (k 3).val; omega

theorem qblk_ix (c : Dev nD) (t : Fin cfg1.N) (r : Fin 512) (d : Fin 64) :
    (iblk1 V c 0 t : Vec Ideal S1x1x512x64 .bf16) (ix4 0 0 r d)
      = (V c main_v6 : S2x16x2048x64.Idx → EReal) (ix4 (headB t) (headH t) (qRow t r) d) :=
  qblk_apply V c t _ _ rfl rfl rfl rfl

/-- The key slab at point t, at a block index, is the key array at the head of t. -/
theorem kblk_apply (c : Dev nD) (t : Fin cfg1.N) (x : S1x1x2048x64.Idx) (k : S2x16x2048x64.Idx)
    (h0 : (k 0).val = t.val / 64) (h1 : (k 1).val = t.val / 4 % 16)
    (h2 : (k 2).val = (x 2).val) (h3 : (k 3).val = (x 3).val) :
    (iblk1 V c 1 t : Vec Ideal S1x1x2048x64 .bf16) x = (V c main_v7 : S2x16x2048x64.Idx → EReal) k := by
  obtain ⟨-, ⟨e0, e1, e2, e3⟩, -⟩ := idx_facts t
  have hx0 : (x 0).val < 1 := (x 0).isLt
  have hx1 : (x 1).val < 1 := (x 1).isLt
  unfold iblk1
  rw [View.read_apply]
  show V c main_v7 _ = V c main_v7 _
  refine congrArg _ ?_
  funext a
  apply Fin.ext
  match a with
  | ⟨0, _⟩ => show win1_1.index t (0 : Fin 4) * 1 + 1 * (x 0).val = (k 0).val; omega
  | ⟨1, _⟩ => show win1_1.index t (1 : Fin 4) * 1 + 1 * (x 1).val = (k 1).val; omega
  | ⟨2, _⟩ => show win1_1.index t (2 : Fin 4) * 2048 + 1 * (x 2).val = (k 2).val; omega
  | ⟨3, _⟩ => show win1_1.index t (3 : Fin 4) * 64 + 1 * (x 3).val = (k 3).val; omega

theorem kblk_ix (c : Dev nD) (t : Fin cfg1.N) (j : Fin 2048) (d : Fin 64) :
    (iblk1 V c 1 t : Vec Ideal S1x1x2048x64 .bf16) (ix4 0 0 j d)
      = (V c main_v7 : S2x16x2048x64.Idx → EReal) (ix4 (headB t) (headH t) j d) :=
  kblk_apply V c t _ _ rfl rfl rfl rfl

/-- The value slab at point t, at a block index, is the value array at the head of t. -/
theorem vblk_apply (c : Dev nD) (t : Fin cfg1.N) (x : S1x1x2048x64.Idx) (k : S2x16x2048x64.Idx)
    (h0 : (k 0).val = t.val / 64) (h1 : (k 1).val = t.val / 4 % 16)
    (h2 : (k 2).val = (x 2).val) (h3 : (k 3).val = (x 3).val) :
    (iblk1 V c 2 t : Vec Ideal S1x1x2048x64 .bf16) x = (V c main_v8 : S2x16x2048x64.Idx → EReal) k := by
  obtain ⟨-, -, ⟨e0, e1, e2, e3⟩, -⟩ := idx_facts t
  have hx0 : (x 0).val < 1 := (x 0).isLt
  have hx1 : (x 1).val < 1 := (x 1).isLt
  unfold iblk1
  rw [View.read_apply]
  show V c main_v8 _ = V c main_v8 _
  refine congrArg _ ?_
  funext a
  apply Fin.ext
  match a with
  | ⟨0, _⟩ => show win1_2.index t (0 : Fin 4) * 1 + 1 * (x 0).val = (k 0).val; omega
  | ⟨1, _⟩ => show win1_2.index t (1 : Fin 4) * 1 + 1 * (x 1).val = (k 1).val; omega
  | ⟨2, _⟩ => show win1_2.index t (2 : Fin 4) * 2048 + 1 * (x 2).val = (k 2).val; omega
  | ⟨3, _⟩ => show win1_2.index t (3 : Fin 4) * 64 + 1 * (x 3).val = (k 3).val; omega

theorem vblk_ix (c : Dev nD) (t : Fin cfg1.N) (j : Fin 2048) (d : Fin 64) :
    (iblk1 V c 2 t : Vec Ideal S1x1x2048x64 .bf16) (ix4 0 0 j d)
      = (V c main_v8 : S2x16x2048x64.Idx → EReal) (ix4 (headB t) (headH t) j d) :=
  vblk_apply V c t _ _ rfl rfl rfl rfl

/-- Where the weight window's block at point t sits in the weight array. -/
theorem wblk_emb (t : Fin cfg1.N) (r : Fin 512) (j : Fin 2048) :
    ((cfg1.win 3).blk t).view.emb (ix4 0 0 r j : S1x1x512x2048.Idx)
      = (ix4 (headB t) (headH t) (qRow t r) j : S2x16x2048x2048.Idx) := by
  obtain ⟨-, -, -, ⟨e0, e1, e2, e3⟩, -⟩ := idx_facts t
  funext a
  apply Fin.ext
  match a with
  | ⟨0, _⟩ => show win1_3.index t (0 : Fin 4) * 1 + 1 * 0 = t.val / 64; omega
  | ⟨1, _⟩ => show win1_3.index t (1 : Fin 4) * 1 + 1 * 0 = t.val / 4 % 16; omega
  | ⟨2, _⟩ => show win1_3.index t (2 : Fin 4) * 512 + 1 * r.val = 512 * (t.val % 4) + r.val; omega
  | ⟨3, _⟩ => show win1_3.index t (3 : Fin 4) * 2048 + 1 * j.val = j.val; omega

/-- Where the value-output window's block at point t sits in the output array. -/
theorem oblk_emb (t : Fin cfg1.N) (r : Fin 512) (d : Fin 64) :
    ((cfg1.win 4).blk t).view.emb (ix4 0 0 r d : S1x1x512x64.Idx)
      = (ix4 (headB t) (headH t) (qRow t r) d : S2x16x2048x64.Idx) := by
  obtain ⟨-, -, -, -, ⟨e0, e1, e2, e3⟩⟩ := idx_facts t
  funext a
  apply Fin.ext
  match a with
  | ⟨0, _⟩ => show win1_4.index t (0 : Fin 4) * 1 + 1 * 0 = t.val / 64; omega
  | ⟨1, _⟩ => show win1_4.index t (1 : Fin 4) * 1 + 1 * 0 = t.val / 4 % 16; omega
  | ⟨2, _⟩ => show win1_4.index t (2 : Fin 4) * 512 + 1 * r.val = 512 * (t.val % 4) + r.val; omega
  | ⟨3, _⟩ => show win1_4.index t (3 : Fin 4) * 64 + 1 * d.val = d.val; omega

/-! ## The output blocks cover their arrays -/

/-- An index of the weight array is in point t's block iff each coordinate is in the block's range on its axis. -/
theorem mem_wblk (t : Fin cfg1.N) (i : S2x16x2048x2048.Idx) :
    i ∈ ((cfg1.win 3).blk t).view.set ↔ ∀ a : Fin 4, win1_3.index t a * S1x1x512x2048.size a ≤ (i a).val
      ∧ (i a).val < win1_3.index t a * S1x1x512x2048.size a + S1x1x512x2048.size a := by
  show i ∈ ((View.whole main_v9_0).slice (win1_3.rect t)).set ↔ _
  rw [View.set_slice_whole, Rect.mem_set_unit]
  exact Iff.rfl

/-- An index of the value-output array is in point t's block iff each coordinate is in the block's range on its axis. -/
theorem mem_oblk (t : Fin cfg1.N) (i : S2x16x2048x64.Idx) :
    i ∈ ((cfg1.win 4).blk t).view.set ↔ ∀ a : Fin 4, win1_4.index t a * S1x1x512x64.size a ≤ (i a).val
      ∧ (i a).val < win1_4.index t a * S1x1x512x64.size a + S1x1x512x64.size a := by
  show i ∈ ((View.whole main_v9_1).slice (win1_4.rect t)).set ↔ _
  rw [View.set_slice_whole, Rect.mem_set_unit]
  exact Iff.rfl

/-- The grid point of head (b, h) and query block q. -/
def pointOf (b h q : Nat) (hb : b < 2) (hh : h < 16) (hq : q < 4) : Fin cfg1.N :=
  ⟨(b * 16 + h) * 4 + q, lt_of_lt_of_eq (by omega : (b * 16 + h) * 4 + q < 128) N1.symm⟩

/-- Every index of the weight array is in the block of the point of its head and of its row's block. -/
theorem cover_w (i : S2x16x2048x2048.Idx) :
    ∃ t : Fin cfg1.N, (cfg1.win 3).flush t = true ∧ i ∈ ((cfg1.win 3).blk t).view.set := by
  have h0 : (i 0).val < 2 := (i 0).isLt
  have h1 : (i 1).val < 16 := (i 1).isLt
  have h2 : (i 2).val < 2048 := (i 2).isLt
  have h3 : (i 3).val < 2048 := (i 3).isLt
  refine ⟨pointOf (i 0).val (i 1).val ((i 2).val / 512) h0 h1 (by omega), flush1_3 _, ?_⟩
  obtain ⟨-, -, -, ⟨e0, e1, e2, e3⟩, -⟩ := idx_facts (pointOf (i 0).val (i 1).val ((i 2).val / 512) h0 h1 (by omega))
  have ht : (pointOf (i 0).val (i 1).val ((i 2).val / 512) h0 h1 (by omega)).val
      = ((i 0).val * 16 + (i 1).val) * 4 + (i 2).val / 512 := rfl
  rw [mem_wblk]
  intro a
  match a with
  | ⟨0, _⟩ => show win1_3.index _ (0 : Fin 4) * 1 ≤ (i 0).val ∧ (i 0).val < win1_3.index _ (0 : Fin 4) * 1 + 1; omega
  | ⟨1, _⟩ => show win1_3.index _ (1 : Fin 4) * 1 ≤ (i 1).val ∧ (i 1).val < win1_3.index _ (1 : Fin 4) * 1 + 1; omega
  | ⟨2, _⟩ => show win1_3.index _ (2 : Fin 4) * 512 ≤ (i 2).val ∧ (i 2).val < win1_3.index _ (2 : Fin 4) * 512 + 512; omega
  | ⟨3, _⟩ => show win1_3.index _ (3 : Fin 4) * 2048 ≤ (i 3).val ∧ (i 3).val < win1_3.index _ (3 : Fin 4) * 2048 + 2048; omega

/-- Every index of the value-output array is in the block of the point of its head and of its row's block. -/
theorem cover_o (i : S2x16x2048x64.Idx) :
    ∃ t : Fin cfg1.N, (cfg1.win 4).flush t = true ∧ i ∈ ((cfg1.win 4).blk t).view.set := by
  have h0 : (i 0).val < 2 := (i 0).isLt
  have h1 : (i 1).val < 16 := (i 1).isLt
  have h2 : (i 2).val < 2048 := (i 2).isLt
  have h3 : (i 3).val < 64 := (i 3).isLt
  refine ⟨pointOf (i 0).val (i 1).val ((i 2).val / 512) h0 h1 (by omega), flush1_4 _, ?_⟩
  obtain ⟨-, -, -, -, ⟨e0, e1, e2, e3⟩⟩ := idx_facts (pointOf (i 0).val (i 1).val ((i 2).val / 512) h0 h1 (by omega))
  have ht : (pointOf (i 0).val (i 1).val ((i 2).val / 512) h0 h1 (by omega)).val
      = ((i 0).val * 16 + (i 1).val) * 4 + (i 2).val / 512 := rfl
  rw [mem_oblk]
  intro a
  match a with
  | ⟨0, _⟩ => show win1_4.index _ (0 : Fin 4) * 1 ≤ (i 0).val ∧ (i 0).val < win1_4.index _ (0 : Fin 4) * 1 + 1; omega
  | ⟨1, _⟩ => show win1_4.index _ (1 : Fin 4) * 1 ≤ (i 1).val ∧ (i 1).val < win1_4.index _ (1 : Fin 4) * 1 + 1; omega
  | ⟨2, _⟩ => show win1_4.index _ (2 : Fin 4) * 512 ≤ (i 2).val ∧ (i 2).val < win1_4.index _ (2 : Fin 4) * 512 + 512; omega
  | ⟨3, _⟩ => show win1_4.index _ (3 : Fin 4) * 64 ≤ (i 3).val ∧ (i 3).val < win1_4.index _ (3 : Fin 4) * 64 + 64; omega

end Windows

end Cert.Attn

end
-- ==== Proof.Region1.lean ====
/-
  Region 1 (attention): after the region the weight array is the attention weights of the query and key arrays the
  region finds, and the value-output array is those weights applied to the value array.

  At each grid point the written-back weight block is the attention weights of the point's query block against its key
  slab, which is the block of the full arrays' weights at the point's head and rows; the written-back value block is
  the block's weights applied to the value slab, which is the block of the full arrays' weighted values. The blocks of
  the 128 points cover both output arrays.
-/
import proofs.«152384_j17437567222132_2_alg».proof.Proof.Spec
import proofs.«152384_j17437567222132_2_alg».proof.Proof.Body1
import proofs.«152384_j17437567222132_2_alg».proof.Proof.Gen.KernelIdeal.Frame
import proofs.«152384_j17437567222132_2_alg».proof.Proof.Region1Blocks

noncomputable section

namespace Cert.Attn

open Idealize.ShloMosaic Idealize.ShloMosaic.TcCoe Idealize.SL.Sem Idealize.ShloMosaic.ValueIdx Cert.KernelIdeal Cert.KernelIdeal.Gen

variable (V : (c : Dev nD) → (b : Ref sig .tc) → Buf (Elt Ideal) ((c : Thread nD τ).loc b))

/-- What point t writes back to the weight array is block t of the attention weights of the query and key arrays. -/
theorem flushed_attn (c : Dev nD) (t : Fin cfg1.N) :
    (dat1 (F := Ideal) V c).flushed 3 t
      = ((cfg1.win 3).blk t).view.read (Elt Ideal) (attn (V c main_v6) (V c main_v7)) := by
  show (cfg1.win 3).cut (grid1.coords t) ((dat1 (F := Ideal) V c).after 3 t) = _
  rw [after1_3]
  unfold out1_3
  rw [View.canon_unit_zero hz4]
  simp only [View.ld_unit_zero (S := S1x1x512x64) hz4, View.ld_unit_zero (S := S1x1x2048x64) hz4]
  rw [body1_attn]
  refine funext fun (y : S1x1x512x2048.Idx) => ?_
  obtain ⟨y0, y1, r, j, rfl⟩ : ∃ (y0 : Fin 1) (y1 : Fin 1) (r : Fin 512) (j : Fin 2048), y = ix4 y0 y1 r j :=
    ⟨y 0, y 1, y 2, y 3, eq_ix4 y⟩
  obtain rfl : y0 = 0 := Subsingleton.elim _ _
  obtain rfl : y1 = 0 := Subsingleton.elim _ _
  show attn (iblk1 V c 0 t) (iblk1 V c 1 t) (ix4 0 0 r j)
    = attn (V c main_v6) (V c main_v7) (((cfg1.win 3).blk t).view.emb (ix4 0 0 r j : S1x1x512x2048.Idx))
  rw [wblk_emb]
  exact attn_block (A := 2) (B := 16) (Tq := 2048) (Tk := 2048) (D := 64) (Tq' := 512)
    (V c main_v6) (V c main_v7) (iblk1 V c 0 t) (iblk1 V c 1 t) (headB t) (headH t) (qRow t)
    (fun r d => qblk_ix V c t r d) (fun j d => kblk_ix V c t j d) r j

/-- What point t writes back to the value-output array is block t of the weights applied to the value array. -/
theorem flushed_vals (c : Dev nD) (t : Fin cfg1.N) :
    (dat1 (F := Ideal) V c).flushed 4 t
      = ((cfg1.win 4).blk t).view.read (Elt Ideal) (av (attn (V c main_v6) (V c main_v7)) (V c main_v8)) := by
  show (cfg1.win 4).cut (grid1.coords t) ((dat1 (F := Ideal) V c).after 4 t) = _
  rw [after1_4]
  unfold out1_4
  rw [View.canon_unit_zero hz4]
  simp only [View.ld_unit_zero (S := S1x1x512x64) hz4, View.ld_unit_zero (S := S1x1x2048x64) hz4]
  rw [body1_vals]
  refine funext fun (y : S1x1x512x64.Idx) => ?_
  obtain ⟨y0, y1, r, d, rfl⟩ : ∃ (y0 : Fin 1) (y1 : Fin 1) (r : Fin 512) (d : Fin 64), y = ix4 y0 y1 r d :=
    ⟨y 0, y 1, y 2, y 3, eq_ix4 y⟩
  obtain rfl : y0 = 0 := Subsingleton.elim _ _
  obtain rfl : y1 = 0 := Subsingleton.elim _ _
  show av (attn (iblk1 V c 0 t) (iblk1 V c 1 t)) (iblk1 V c 2 t) (ix4 0 0 r d)
    = av (attn (V c main_v6) (V c main_v7)) (V c main_v8) (((cfg1.win 4).blk t).view.emb (ix4 0 0 r d : S1x1x512x64.Idx))
  rw [oblk_emb]
  exact av_block (A := 2) (B := 16) (Tq := 2048) (Tk := 2048) (D := 64) (Tq' := 512)
    (attn (V c main_v6) (V c main_v7)) (V c main_v8) (attn (iblk1 V c 0 t) (iblk1 V c 1 t)) (iblk1 V c 2 t)
    (headB t) (headH t) (qRow t)
    (fun r j => attn_block (A := 2) (B := 16) (Tq := 2048) (Tk := 2048) (D := 64) (Tq' := 512)
      (V c main_v6) (V c main_v7) (iblk1 V c 0 t) (iblk1 V c 1 t) (headB t) (headH t) (qRow t)
      (fun r d => qblk_ix V c t r d) (fun j d => kblk_ix V c t j d) r j)
    (fun j d => vblk_ix V c t j d) r d

/-- The weight array after the region. -/
theorem region1_attn (c : Dev nD) :
    (dat1 (F := Ideal) V c).arrAt 3 cfg1.N = attn (V c main_v6) (V c main_v7) :=
  (dat1 (F := Ideal) V c).arrAt_eq_of_cover 3 (attn (V c main_v6) (V c main_v7))
    (fun t _ => flushed_attn V c t) cover_w

/-- The value-output array after the region. -/
theorem region1_vals (c : Dev nD) :
    (dat1 (F := Ideal) V c).arrAt 4 cfg1.N = av (attn (V c main_v6) (V c main_v7)) (V c main_v8) :=
  (dat1 (F := Ideal) V c).arrAt_eq_of_cover 4 (av (attn (V c main_v6) (V c main_v7)) (V c main_v8))
    (fun t _ => flushed_vals V c t) cover_o

end Cert.Attn

end
-- ==== Proof.Region2.lean ====
/-
  The output projection of the attention block. One grid point multiplies a block of 512 rows of the attention
  output by the whole weight matrix and adds the bias row; the eight row blocks tile the 4096 rows, so the result
  array ends at the affine map of its input array: at (r, e) the sum over k of x (r, k) W (k, e), plus b e.
-/
import proofs.«152384_j17437567222132_2_alg».proof.Proof.Spec
import proofs.«152384_j17437567222132_2_alg».proof.Proof.LibPlainDot
import proofs.«152384_j17437567222132_2_alg».proof.Proof.LibRowBroadcasts
import proofs.«152384_j17437567222132_2_alg».proof.Proof.LibMergeRows
import proofs.«152384_j17437567222132_2_alg».proof.Proof.Gen.KernelIdeal.Frame

noncomputable section

namespace Cert.Attn

open Idealize.ShloMosaic Idealize.ShloMosaic.TcCoe Idealize.SL.Sem Idealize.ShloMosaic.ValueIdx Cert.KernelIdeal Cert.KernelIdeal.Gen
open scoped BigOperators

/-- What one grid point computes from its blocks: the affine map of the row block. -/
theorem body2 (v0 : Vec Ideal S512x1024 .bf16) (v2 : Vec Ideal S1024x1024 .bf16) (v5 : Vec Ideal S1024 .f32) :
    k2_pay1 (F := Ideal) v0 v2 v5 = affine v0 v2 v5 := by
  funext j
  obtain ⟨p, q, rfl⟩ : ∃ (p : Fin 512) (q : Fin 1024), j = ix2 p q := ⟨j 0, j 1, eq_ix2 j⟩
  unfold k2_pay1
  rw [addf_apply, affine_apply]
  simp only [shapeCast_self]
  refine congrArg₂ (· + ·) ?_ ?_
  · exact Cert.Lib.PlainDot.matmul_zero_apply dot_S512x1024_S1024x1024_S512x1024_1_0_0_1_n_n_wf none v0 v2 p q
  · exact (Cert.Lib.Rows.bcastRow_apply _ broadcasts_S1x1024_S512x1024 p q).trans
      (Cert.Lib.MergeRows.row_apply v5 shapeCasts_S1024_S1x1024 q)

/-! ## From the row blocks to the array -/

theorem out_zeros2 : (![0, 0] : Fin 2 → Nat) = fun _ => 0 := funext fun a => by fin_cases a <;> rfl

theorem out_zeros1 : (![0] : Fin 1 → Nat) = fun _ => 0 := funext fun a => by fin_cases a; rfl

/-- The block indices over the grid: point t reads row block t of the input and writes row block t of the output;
    the weight matrix and the bias are read whole at every point. -/
theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

theorem point_lt2 (t : Fin cfg2.N) : t.val < 8 := Nat.lt_of_lt_of_eq t.isLt N_2

variable (V : (c : Dev nD) → (b : Ref sig .tc) → Buf (Elt Ideal) ((c : Thread nD τ).loc b))

/-- Row p of the input block at point t is row 512 t + p of the input array. -/
theorem iblk2_rows (c : Dev nD) (t : Fin cfg2.N) (p : Fin 512) (k : Fin 1024) (r : Fin 4096)
    (hr : r.val = 512 * t.val + p.val) :
    (iblk2 (F := Ideal) V c 0 t : Vec Ideal S512x1024 .bf16) (ix2 p k)
      = (V c main_v11 : S4096x1024.Idx → EReal) (ix2 r k) := by
  obtain ⟨e0, e1, -⟩ := block_index2 t
  unfold iblk2
  rw [View.read_apply]
  show V c main_v11 _ = V c main_v11 _
  congr 1
  funext a
  apply Fin.ext
  match a with
  | ⟨0, _⟩ => show win2_0.index t (0 : Fin 2) * 512 + 1 * p.val = r.val; rw [e0, hr]; omega
  | ⟨1, _⟩ => show win2_0.index t (1 : Fin 2) * 1024 + 1 * k.val = k.val; rw [e1]; omega

/-- The weight block at every point is the whole weight matrix. -/
theorem iblk2_weights (c : Dev nD) (t : Fin cfg2.N) :
    (iblk2 (F := Ideal) V c 1 t : Vec Ideal S1024x1024 .bf16) = (V c main_v1 : S1024x1024.Idx → EReal) := by
  obtain ⟨-, -, e0, e1, -⟩ := block_index2 t
  funext y
  unfold iblk2
  rw [View.read_apply]
  show V c main_v1 _ = V c main_v1 _
  congr 1
  funext a
  apply Fin.ext
  match a with
  | ⟨0, _⟩ => show win2_1.index t (0 : Fin 2) * 1024 + 1 * (y 0).val = (y 0).val; rw [e0]; omega
  | ⟨1, _⟩ => show win2_1.index t (1 : Fin 2) * 1024 + 1 * (y 1).val = (y 1).val; rw [e1]; omega

/-- The bias block at every point is the whole bias vector. -/
theorem iblk2_bias (c : Dev nD) (t : Fin cfg2.N) :
    (iblk2 (F := Ideal) V c 2 t : Vec Ideal S1024 .f32) = (V c main_arg4 : S1024.Idx → EReal) := by
  obtain ⟨-, -, -, -, e0, -⟩ := block_index2 t
  funext y
  unfold iblk2
  rw [View.read_apply]
  show V c main_arg4 _ = V c main_arg4 _
  congr 1
  funext a
  apply Fin.ext
  match a with
  | ⟨0, _⟩ => show win2_2.index t (0 : Fin 1) * 1024 + 1 * (y 0).val = (y 0).val; rw [e0]; omega

/-- What point t writes back is row block t of the affine map of the arrays. -/
theorem flushed2 (c : Dev nD) (t : Fin cfg2.N) :
    (dat2 (F := Ideal) V c).flushed 3 t
      = ((cfg2.win 3).blk t).view.read (Elt Ideal) (affine (V c main_v11) (V c main_v1) (V c main_arg4)) := by
  show (cfg2.win 3).cut (grid2.coords t) ((dat2 (F := Ideal) V c).after 3 t) = _
  rw [after2_3]
  unfold out2_3
  rw [View.canon_unit_zero out_zeros2]
  simp only [View.ld_unit_zero (S := S512x1024) out_zeros2, View.ld_unit_zero (S := S1024x1024) out_zeros2,
    View.ld_unit_zero (S := S1024) out_zeros1]
  rw [body2, iblk2_weights, iblk2_bias]
  obtain ⟨-, -, -, -, -, e0, e1⟩ := block_index2 t
  have ht := point_lt2 t
  funext y
  obtain ⟨p, q, rfl⟩ : ∃ (p : Fin 512) (q : Fin 1024), y = ix2 p q := ⟨y 0, y 1, eq_ix2 y⟩
  have hemb : ((cfg2.win 3).blk t).view.emb (ix2 p q)
      = (ix2 (⟨512 * t.val + p.val, by omega⟩ : Fin 4096) q : S4096x1024.Idx) := by
    funext a
    apply Fin.ext
    match a with
    | ⟨0, _⟩ => show win2_3.index t (0 : Fin 2) * 512 + 1 * p.val = 512 * t.val + p.val; rw [e0]; omega
    | ⟨1, _⟩ => show win2_3.index t (1 : Fin 2) * 1024 + 1 * q.val = q.val; rw [e1]; omega
  rw [View.read_apply]
  show affine (iblk2 (F := Ideal) V c 0 t) (V c main_v1) (V c main_arg4) (ix2 p q)
    = affine (V c main_v11) (V c main_v1) (V c main_arg4) (((cfg2.win 3).blk t).view.emb (ix2 p q))
  rw [hemb, affine_apply, affine_apply]
  refine congrArg (· + _) (Finset.sum_congr rfl fun k _ => ?_)
  rw [iblk2_rows V c t p k ⟨512 * t.val + p.val, by omega⟩ rfl]

/-- An index of the output array is in point t's block iff each coordinate is in the block's range on its axis. -/
theorem mem_block2 (t : Fin cfg2.N) (i : S4096x1024.Idx) :
    i ∈ ((cfg2.win 3).blk t).view.set
      ↔ ∀ a : Fin 2, win2_3.index t a * S512x1024.size a ≤ (i a).val
          ∧ (i a).val < win2_3.index t a * S512x1024.size a + S512x1024.size a := by
  show i ∈ ((View.whole main_v12).slice (win2_3.rect t)).set ↔ _
  rw [View.set_slice_whole, Rect.mem_set_unit]
  exact Iff.rfl

/-- Row r of the output array is written back by point r / 512. -/
theorem covered2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 8 := N_2
  let t : Fin cfg2.N := ⟨(i 0).val / 512, by rw [hN]; omega⟩
  obtain ⟨-, -, -, -, -, e0, e1⟩ := block_index2 t
  have e0' : win2_3.index t (0 : Fin 2) = (i 0).val / 512 := e0
  refine ⟨t, flush2_3 t, ?_⟩
  rw [mem_block2]
  intro a
  match a with
  | ⟨0, _⟩ =>
    show win2_3.index t (0 : Fin 2) * 512 ≤ (i 0).val ∧ (i 0).val < win2_3.index t (0 : Fin 2) * 512 + 512
    rw [e0']; omega
  | ⟨1, _⟩ =>
    show win2_3.index t (1 : Fin 2) * 1024 ≤ (i 1).val ∧ (i 1).val < win2_3.index t (1 : Fin 2) * 1024 + 1024
    rw [e1]; omega

/-- The output array of the output projection after its region: the affine map of the region's entry arrays. -/
theorem region2_array (c : Dev nD) :
    (dat2 (F := Ideal) V c).arrAt 3 cfg2.N = affine (V c main_v11) (V c main_v1) (V c main_arg4) :=
  (dat2 (F := Ideal) V c).arrAt_eq_of_cover 3 (affine (V c main_v11) (V c main_v1) (V c main_arg4))
    (fun t _ => flushed2 V c t) covered2

end Cert.Attn

end
-- ==== Proof.KernelValue.lean ====
/-
  What the idealized kernel's run leaves in its two result arrays: the contents at the last boundary, read back
  through the stretches of host operations, with each region's arrays the spec functions of the region's entry
  arrays, are the whole-array functions of the launch arguments.
-/
import proofs.«152384_j17437567222132_2_alg».proof.Proof.KernelTerms
import proofs.«152384_j17437567222132_2_alg».proof.Proof.KernelFold
import proofs.«152384_j17437567222132_2_alg».proof.Proof.Region0
import proofs.«152384_j17437567222132_2_alg».proof.Proof.Region1
import proofs.«152384_j17437567222132_2_alg».proof.Proof.Region2

noncomputable section

namespace Cert.Attn.KRun

open Idealize.ShloMosaic Idealize.ShloMosaic.TcCoe Idealize.SL.Sem Idealize.ShloMosaic.ValueIdx
open Cert.KernelIdeal Cert.KernelIdeal.Gen Cert.Attn.KTerms

variable (m : (ℓ : Loc nD τ sig) → Buf (Elt Ideal) ℓ) (ρ : Dev nD → PrngReg) (c : Dev nD)

/-- The projection region's result array. -/
theorem proj_value : W2 m ρ c (Proc.devRef .tc main_v3) = projRows (m ((c : Thread nD τ).loc main_arg0)) (m ((c : Thread nD τ).loc main_arg1)) (m ((c : Thread nD τ).loc main_arg2)) := by
  rw [show W2 m ρ c (Proc.devRef .tc main_v3) = (dat0 (V1 m ρ) c).arrAt 3 cfg0.N from W2_arr m ρ c 3,
    region0_array (V1 m ρ) c]
  show affine (W1 m ρ c (Proc.devRef .tc main_v2)) (W1 m ρ c (Proc.devRef .tc main_v0)) (W1 m ρ c (Proc.devRef .tc main_arg2)) = _
  rw [entry0_rows, entry0_weights, entry0_bias]
  rfl

theorem queries_value : W3 m ρ c (Proc.devRef .tc main_v6) = queries (m ((c : Thread nD τ).loc main_arg0)) (m ((c : Thread nD τ).loc main_arg1)) (m ((c : Thread nD τ).loc main_arg2)) := by
  rw [entry1_queries, proj_value]; rfl

theorem keys_value : W3 m ρ c (Proc.devRef .tc main_v7) = keys (m ((c : Thread nD τ).loc main_arg0)) (m ((c : Thread nD τ).loc main_arg1)) (m ((c : Thread nD τ).loc main_arg2)) := by
  rw [entry1_keys, proj_value]; rfl

theorem values_value : W3 m ρ c (Proc.devRef .tc main_v8) = values (m ((c : Thread nD τ).loc main_arg0)) (m ((c : Thread nD τ).loc main_arg1)) (m ((c : Thread nD τ).loc main_arg2)) := by
  rw [entry1_values, proj_value]; rfl

/-- The second result: the attention weights of the queries against the keys. -/
theorem weights_value : W7 m ρ c (Proc.devRef .tc main_v9_0) = weights (m ((c : Thread nD τ).loc main_arg0)) (m ((c : Thread nD τ).loc main_arg1)) (m ((c : Thread nD τ).loc main_arg2)) := by
  rw [result_attn, show W4 m ρ c (Proc.devRef .tc main_v9_0) = (dat1 (V3 m ρ) c).arrAt 3 cfg1.N from W4_arr m ρ c 3,
    region1_attn (V3 m ρ) c]
  show attn (W3 m ρ c (Proc.devRef .tc main_v6)) (W3 m ρ c (Proc.devRef .tc main_v7)) = _
  rw [queries_value, keys_value]
  rfl

/-- The attention region's second array: the weights applied to the values. -/
theorem weighted_value : W4 m ρ c (Proc.devRef .tc main_v9_1) = weighted (m ((c : Thread nD τ).loc main_arg0)) (m ((c : Thread nD τ).loc main_arg1)) (m ((c : Thread nD τ).loc main_arg2)) := by
  rw [show W4 m ρ c (Proc.devRef .tc main_v9_1) = (dat1 (V3 m ρ) c).arrAt 4 cfg1.N from W4_arr m ρ c 4,
    region1_vals (V3 m ρ) c]
  show av (attn (W3 m ρ c (Proc.devRef .tc main_v6)) (W3 m ρ c (Proc.devRef .tc main_v7))) (W3 m ρ c (Proc.devRef .tc main_v8)) = _
  rw [queries_value, keys_value, values_value]
  rfl

/-- The first result: the weighted values, as rows, through the output projection, split back into batch and sequence. -/
theorem out_value : W7 m ρ c (Proc.devRef .tc main_v13) = outArr (m ((c : Thread nD τ).loc main_arg0)) (m ((c : Thread nD τ).loc main_arg1)) (m ((c : Thread nD τ).loc main_arg2)) (m ((c : Thread nD τ).loc main_arg3)) (m ((c : Thread nD τ).loc main_arg4)) := by
  rw [result_out, show W6 m ρ c (Proc.devRef .tc main_v12) = (dat2 (V5 m ρ) c).arrAt 3 cfg2.N from W6_arr m ρ c 3,
    region2_array (V5 m ρ) c]
  show shapeCast S2x2048x1024 (affine (W5 m ρ c (Proc.devRef .tc main_v11)) (W5 m ρ c (Proc.devRef .tc main_v1)) (W5 m ρ c (Proc.devRef .tc main_arg4))) _ = _
  rw [entry2_rows, entry2_weights, entry2_bias, weighted_value]
  rfl

end Cert.Attn.KRun

end
-- ==== Proof.RefAttn.lean ====
/-
  The reference's softmax and weighted values, index by index.

  From q = main_v6 and k = main_v7 the reference forms the scaled scores s (b, h, i, j) = (sum over d of q (b, h, i, d) k (b, h, j, d)) / 8,
  each row's maximum from minus infinity (and once more against minus infinity, which changes nothing), the exponentials
  exp (s - max), each row's sum of them from zero, and the quotient: the attention weights of Spec. Its last product is the
  sum over j of the weight at (b, h, i, j) times v (b, h, j, d) with v = main_v8.
-/
import proofs.«152384_j17437567222132_2_alg».proof.Proof.Spec
import proofs.«152384_j17437567222132_2_alg».proof.Proof.Gen.ReferenceIdeal.Read

noncomputable section

namespace Cert.Attn

open Idealize.ShloMosaic Idealize.ShloMosaic.ValueIdx Cert.ReferenceIdeal Cert.ReferenceIdeal.Read
open scoped BigOperators

variable (x0 : (⟨S2x2048x1024, .f32⟩ : BufTy).Contents (Elt Ideal)) (x1 : (⟨S1024x3072, .f32⟩ : BufTy).Contents (Elt Ideal)) (x2 : (⟨S3072, .f32⟩ : BufTy).Contents (Elt Ideal))

/-! ## Where each stage reads its operands -/

/-- The score at (b, h, i, j) reads q at (b, h, i, d). -/
theorem lidx_v9_ix4 (b : Fin 2) (h : Fin 16) (p j : Fin 2048) (d : Fin 64) :
    lidx_main_v9 (ix4 b h p j) d = ix4 b h p d :=
  funext fun a => Fin.ext (by match a with | ⟨0, _⟩ => rfl | ⟨1, _⟩ => rfl | ⟨2, _⟩ => rfl | ⟨3, _⟩ => rfl)

/-- The score at (b, h, i, j) reads k at (b, h, j, d). -/
theorem ridx_v9_ix4 (b : Fin 2) (h : Fin 16) (p j : Fin 2048) (d : Fin 64) :
    ridx_main_v9 (ix4 b h p j) d = ix4 b h j d :=
  funext fun a => Fin.ext (by match a with | ⟨0, _⟩ => rfl | ⟨1, _⟩ => rfl | ⟨2, _⟩ => rfl | ⟨3, _⟩ => rfl)

/-- A row statistic broadcast back along the key axis is read at the row (b, h, i). -/
theorem idx_v15_v16_ix4 (b : Fin 2) (h : Fin 16) (p j : Fin 2048) :
    idx_main_v15 (idx_main_v16 (ix4 b h p j)) = ix3 b h p :=
  funext fun a => Fin.ext (by match a with | ⟨0, _⟩ => rfl | ⟨1, _⟩ => rfl | ⟨2, _⟩ => rfl)

theorem idx_v20_v21_ix4 (b : Fin 2) (h : Fin 16) (p j : Fin 2048) :
    idx_main_v20 (idx_main_v21 (ix4 b h p j)) = ix3 b h p :=
  funext fun a => Fin.ext (by match a with | ⟨0, _⟩ => rfl | ⟨1, _⟩ => rfl | ⟨2, _⟩ => rfl)

/-- The row sum at (b, h, i) runs over the entries (b, h, i, j). -/
theorem idx_v19_ix3 (b : Fin 2) (h : Fin 16) (p j : Fin 2048) :
    idx_main_v19 (ix3 b h p) j = ix4 b h p j :=
  funext fun a => Fin.ext (by match a with | ⟨0, _⟩ => rfl | ⟨1, _⟩ => rfl | ⟨2, _⟩ => rfl | ⟨3, _⟩ => rfl)

/-- The last product at (b, h, i, d) reads the weights at (b, h, i, j). -/
theorem lidx_v23_ix4 (b : Fin 2) (h : Fin 16) (p : Fin 2048) (d : Fin 64) (j : Fin 2048) :
    lidx_main_v23 (ix4 b h p d) j = ix4 b h p j :=
  funext fun a => Fin.ext (by match a with | ⟨0, _⟩ => rfl | ⟨1, _⟩ => rfl | ⟨2, _⟩ => rfl | ⟨3, _⟩ => rfl)

/-- The last product at (b, h, i, d) reads v at (b, h, j, d). -/
theorem ridx_v23_ix4 (b : Fin 2) (h : Fin 16) (p : Fin 2048) (d : Fin 64) (j : Fin 2048) :
    ridx_main_v23 (ix4 b h p d) j = ix4 b h j d :=
  funext fun a => Fin.ext (by match a with | ⟨0, _⟩ => rfl | ⟨1, _⟩ => rfl | ⟨2, _⟩ => rfl | ⟨3, _⟩ => rfl)

/-! ## The scores -/

/-- main_v11 is the scaled score. -/
theorem ref_score (b : Fin 2) (h : Fin 16) (p j : Fin 2048) :
    val_main_v11 (F := Ideal) x0 x1 x2 (ix4 b h p j)
      = score (val_main_v6 (F := Ideal) x0 x1 x2) (val_main_v7 (F := Ideal) x0 x1 x2) b h p j := by
  rw [val_main_v11_apply, val_main_v9_apply, val_main_v10_apply, val_main_cst_apply]
  simp only [lidx_v9_ix4, ridx_v9_ix4]
  rfl

/-! ## Each row's maximum -/

/-- The word 0xFF800000 is minus infinity. -/
theorem negInf_f32 : Ideal.ofBits .f32 0xFF800000#32 = (⊥ : EReal) := by simp [Ideal.ofBits, Ideal.ieee]

/-- Dropping the key axis of the scores leaves the rows. -/
theorem reduces_keys : S2x16x2048x2048.Reduces [3] S2x16x2048 := by decide

/-- The row (b, h, i) with the key coordinate j put back is (b, h, i, j). -/
theorem lift_ix3 (b : Fin 2) (h : Fin 16) (p : Fin 2048) (j : Fin (S2x16x2048x2048.size 3)) :
    reduces_keys.lift (ix3 b h p) j = ix4 b h p (⟨j.val, j.isLt⟩ : Fin 2048) := by
  funext c; apply Fin.ext
  match c with | ⟨0, _⟩ => rfl | ⟨1, _⟩ => rfl | ⟨2, _⟩ => rfl | ⟨3, _⟩ => rfl

/-- main_v14 is each row's largest score from minus infinity: the fold over the key axis, and the further maximum
    with minus infinity changes nothing. -/
theorem ref_rowMax (b : Fin 2) (h : Fin 16) (p : Fin 2048) :
    val_main_v14 (F := Ideal) x0 x1 x2 (ix3 b h p)
      = rowMax (val_main_v6 (F := Ideal) x0 x1 x2) (val_main_v7 (F := Ideal) x0 x1 x2) b h p := by
  rw [val_main_v14_apply, val_main_v13_apply, val_main_cst_1_apply]
  unfold val_main_v12
  rw [Host.reduce_eq_fold_single FloatOps.maximumf _ _ _ reduces_keys Gen.h_S_]
  have hf : (val_main_v11 (F := Ideal) x0 x1 x2 ∘ reduces_keys.lift (ix3 b h p))
      = fun j : Fin 2048 => score (val_main_v6 (F := Ideal) x0 x1 x2) (val_main_v7 (F := Ideal) x0 x1 x2) b h p j :=
    funext fun j => by
      show val_main_v11 (F := Ideal) x0 x1 x2 (reduces_keys.lift (ix3 b h p) j) = _
      rw [lift_ix3, ref_score]
      rfl
  refine (congrArg (fun f => max (Ideal.ofBits .f32 0xFF800000#32)
    (Finset.fold max (Ideal.ofBits .f32 0xFF800000#32) f (Finset.univ : Finset (Fin 2048)))) hf).trans ?_
  unfold rowMax
  rw [negInf_f32]
  exact max_bot_left _

/-! ## The exponentials, the weights, the weighted values -/

/-- main_v18 is the exponential of a score less its row's maximum. -/
theorem ref_expScore (b : Fin 2) (h : Fin 16) (p j : Fin 2048) :
    val_main_v18 (F := Ideal) x0 x1 x2 (ix4 b h p j)
      = expScore (val_main_v6 (F := Ideal) x0 x1 x2) (val_main_v7 (F := Ideal) x0 x1 x2) b h p j := by
  rw [val_main_v18_apply, val_main_v17_apply, val_main_v16_apply, val_main_v15_apply, idx_v15_v16_ix4, ref_score, ref_rowMax]
  rfl

/-- main_v22 is the attention weights of q = main_v6 and k = main_v7. -/
theorem ref_attn : val_main_v22 (F := Ideal) x0 x1 x2
    = attn (val_main_v6 (F := Ideal) x0 x1 x2) (val_main_v7 (F := Ideal) x0 x1 x2) := by
  funext i
  obtain ⟨b, h, p, j, rfl⟩ : ∃ (b : Fin 2) (h : Fin 16) (p j : Fin 2048), i = ix4 b h p j := ⟨i 0, i 1, i 2, i 3, eq_ix4 i⟩
  rw [val_main_v22_apply, val_main_v21_apply, val_main_v20_apply, idx_v20_v21_ix4, val_main_v19_apply, val_main_cst_2_apply,
    ref_expScore, attn_apply]
  refine congrArg (Ideal.div _) ?_
  refine (congrArg (fun z : EReal => z + _) Ideal.ofBits_zero_f32).trans ?_
  refine (zero_add _).trans ?_
  exact Finset.sum_congr rfl fun k _ => by rw [idx_v19_ix3, ref_expScore]

/-- main_v23 is the weights applied to v = main_v8. -/
theorem ref_vals : val_main_v23 (F := Ideal) x0 x1 x2
    = av (val_main_v22 (F := Ideal) x0 x1 x2) (val_main_v8 (F := Ideal) x0 x1 x2) := by
  funext i
  obtain ⟨b, h, p, d, rfl⟩ : ∃ (b : Fin 2) (h : Fin 16) (p : Fin 2048) (d : Fin 64), i = ix4 b h p d := ⟨i 0, i 1, i 2, i 3, eq_ix4 i⟩
  rw [val_main_v23_apply, av_apply]
  exact Finset.sum_congr rfl fun k _ => by rw [lidx_v23_ix4, ridx_v23_ix4]

end Cert.Attn

end
-- ==== Proof.RefProj.lean ====
/-
  The reference's two projections as affine maps of merged rows.

  The reference multiplies a [2, 2048, K] array by a [K, N] matrix along the last axis and adds a length-N bias. Read on
  the 4096 = 2 · 2048 merged rows this is the affine map of Spec: a reshape keeps the row-major position, so row (b, t)
  is merged row 2048 · b + t. For the first projection the result is then split into 16 heads of width 192, column
  192 · h + e; for the last one the operand is main_v24 with its 16 heads of width 64 merged, column 64 · h + d.
-/
import proofs.«152384_j17437567222132_2_alg».proof.Proof.Spec
import proofs.«152384_j17437567222132_2_alg».proof.Proof.LibMergeRows
import proofs.«152384_j17437567222132_2_alg».proof.Proof.Gen.ReferenceIdeal.Read

noncomputable section

namespace Cert.Attn

open Idealize.ShloMosaic Idealize.ShloMosaic.ValueIdx Cert.ReferenceIdeal Cert.ReferenceIdeal.Read
open scoped BigOperators

variable (x0 : (⟨S2x2048x1024, .f32⟩ : BufTy).Contents (Elt Ideal)) (x1 : (⟨S1024x3072, .f32⟩ : BufTy).Contents (Elt Ideal)) (x2 : (⟨S3072, .f32⟩ : BufTy).Contents (Elt Ideal))
  (x3 : (⟨S1024x1024, .f32⟩ : BufTy).Contents (Elt Ideal)) (x4 : (⟨S1024, .f32⟩ : BufTy).Contents (Elt Ideal))

/-- The merged rows: 4096 = 2 · 2048. -/
theorem rows_eq : (4096 : Nat) = 2 * 2048 := rfl

/-- Column 192 · h + e of the 3072 = 16 · 192 columns. -/
abbrev headCol (h : Fin 16) (e : Fin 192) : Fin 3072 :=
  ⟨h.val * 192 + e.val, by have := h.isLt; have := e.isLt; omega⟩

/-! ## The first projection -/

/-- Entry (b, t, h, e) of the split array is entry (b, t, 192 · h + e) before the split. -/
theorem idx_v4_ix4 (b : Fin 2) (t : Fin 2048) (h : Fin 16) (e : Fin 192) :
    idx_main_v4 (ix4 b t h e) = ix3 b t (headCol h e) :=
  funext fun a => Fin.ext (by
    have hb := b.isLt; have ht := t.isLt; have hh := h.isLt; have he := e.isLt
    match a with
    | ⟨0, _⟩ => show (((b.val * 2048 + t.val) * 16 + h.val) * 192 + e.val) / 6291456 = b.val; omega
    | ⟨1, _⟩ => show (((b.val * 2048 + t.val) * 16 + h.val) * 192 + e.val) / 3072 % 2048 = t.val; omega
    | ⟨2, _⟩ => show (((b.val * 2048 + t.val) * 16 + h.val) * 192 + e.val) % 3072 = h.val * 192 + e.val; omega)

/-- The product at (b, t, c) reads the left operand at (b, t, k). -/
theorem lidx_v0_ix3 (b : Fin 2) (t : Fin 2048) (c : Fin 3072) (k : Fin 1024) :
    lidx_main_v0 (ix3 b t c) k = ix3 b t k :=
  funext fun a => Fin.ext (by match a with | ⟨0, _⟩ => rfl | ⟨1, _⟩ => rfl | ⟨2, _⟩ => rfl)

/-- The product at (b, t, c) reads the matrix at (k, c). -/
theorem ridx_v0_ix3 (b : Fin 2) (t : Fin 2048) (c : Fin 3072) (k : Fin 1024) :
    ridx_main_v0 (ix3 b t c) k = ix2 k c :=
  funext fun a => Fin.ext (by match a with | ⟨0, _⟩ => rfl | ⟨1, _⟩ => rfl)

/-- The broadcast bias at (b, t, c) is the bias at c. -/
theorem idx_v1_v2_ix3 (b : Fin 2) (t : Fin 2048) (c : Fin 3072) :
    idx_main_v1 (idx_main_v2 (ix3 b t c)) = ix1 c :=
  funext fun a => Fin.ext (by match a with | ⟨0, _⟩ => rfl)

/-- A 4096 × 3072 array split into [2, 2048, 16, 192] reads, at (b, t, h, e), the array at (2048 · b + t, 192 · h + e). -/
theorem split_heads_apply {α : Type} (y : (⟨2, ![4096, 3072]⟩ : Shape).Idx → α)
    (h2 : (⟨2, ![4096, 3072]⟩ : Shape).ShapeCasts S2x2048x16x192) (b : Fin 2) (t : Fin 2048) (h : Fin 16) (e : Fin 192) :
    shapeCast S2x2048x16x192 y h2 (ix4 b t h e) = y (ix2 (Cert.Lib.MergeRows.flatRow rows_eq b t) (headCol h e)) :=
  shapeCast_apply y h2 _ _ (by
    rw [Shape.rowMajor_val_two, Shape.rowMajor_val_four]
    show (b.val * 2048 + t.val) * 3072 + (h.val * 192 + e.val) = ((b.val * 2048 + t.val) * 16 + h.val) * 192 + e.val
    omega)

/-- main_v4, the projection to q, k and v split by heads, is the affine map of the merged rows of the input, split. -/
theorem ref_qkv (h1 : S2x2048x1024.ShapeCasts ⟨2, ![4096, 1024]⟩) (h2 : (⟨2, ![4096, 3072]⟩ : Shape).ShapeCasts S2x2048x16x192) :
    val_main_v4 (F := Ideal) x0 x1 x2 = shapeCast S2x2048x16x192 (affine (shapeCast ⟨2, ![4096, 1024]⟩ x0 h1) x1 x2) h2 := by
  funext i
  obtain ⟨b, t, h, e, rfl⟩ : ∃ (b : Fin 2) (t : Fin 2048) (h : Fin 16) (e : Fin 192), i = ix4 b t h e :=
    ⟨i 0, i 1, i 2, i 3, eq_ix4 i⟩
  rw [val_main_v4_apply, idx_v4_ix4, val_main_v3_apply, val_main_v0_apply, val_main_v2_apply, val_main_v1_apply, idx_v1_v2_ix3,
    split_heads_apply, affine_apply]
  simp only [lidx_v0_ix3, ridx_v0_ix3, Cert.Lib.MergeRows.merge_apply rows_eq]
  rfl

/-! ## The last projection -/

/-- The product at (b, t, c) reads the left operand at (b, t, k). -/
theorem lidx_v26_ix3 (b : Fin 2) (t : Fin 2048) (c k : Fin 1024) :
    lidx_main_v26 (ix3 b t c) k = ix3 b t k :=
  funext fun a => Fin.ext (by match a with | ⟨0, _⟩ => rfl | ⟨1, _⟩ => rfl | ⟨2, _⟩ => rfl)

/-- The product at (b, t, c) reads the matrix at (k, c). -/
theorem ridx_v26_ix3 (b : Fin 2) (t : Fin 2048) (c k : Fin 1024) :
    ridx_main_v26 (ix3 b t c) k = ix2 k c :=
  funext fun a => Fin.ext (by match a with | ⟨0, _⟩ => rfl | ⟨1, _⟩ => rfl)

/-- The broadcast bias at (b, t, c) is the bias at c. -/
theorem idx_v27_v28_ix3 (b : Fin 2) (t : Fin 2048) (c : Fin 1024) :
    idx_main_v27 (idx_main_v28 (ix3 b t c)) = ix1 c :=
  funext fun a => Fin.ext (by match a with | ⟨0, _⟩ => rfl)

/-- A [2, 2048, 16, 64] array merged to 4096 × 1024 reads, at (2048 · b + t, k), the array where the reference's own
    merge to [2, 2048, 1024] reads it at (b, t, k): both are row-major position 1024 · (2048 · b + t) + k. -/
theorem merge_heads_apply {α : Type} (z : S2x2048x16x64.Idx → α) (h1 : S2x2048x16x64.ShapeCasts ⟨2, ![4096, 1024]⟩)
    (b : Fin 2) (t : Fin 2048) (k : Fin 1024) :
    shapeCast ⟨2, ![4096, 1024]⟩ z h1 (ix2 (Cert.Lib.MergeRows.flatRow rows_eq b t) k) = z (idx_main_v25 (ix3 b t k)) :=
  shapeCast_apply z h1 _ _ (by
    rw [Shape.rowMajor_val_four, Shape.rowMajor_val_two]
    have hb := b.isLt; have ht := t.isLt; have hk := k.isLt
    show ((((b.val * 2048 + t.val) * 1024 + k.val) / 2097152 * 2048 + ((b.val * 2048 + t.val) * 1024 + k.val) / 1024 % 2048) * 16
        + ((b.val * 2048 + t.val) * 1024 + k.val) / 64 % 16) * 64 + ((b.val * 2048 + t.val) * 1024 + k.val) % 64
      = (b.val * 2048 + t.val) * 1024 + k.val
    omega)

/-- main_v29, the result, is the affine map of the merged rows of main_v24 (heads merged), split back into [2, 2048]. -/
theorem ref_out (h1 : S2x2048x16x64.ShapeCasts ⟨2, ![4096, 1024]⟩) (h2 : (⟨2, ![4096, 1024]⟩ : Shape).ShapeCasts S2x2048x1024) :
    val_main_v29 (F := Ideal) x0 x1 x2 x3 x4
      = shapeCast S2x2048x1024 (affine (shapeCast ⟨2, ![4096, 1024]⟩ (val_main_v24 (F := Ideal) x0 x1 x2) h1) x3 x4) h2 := by
  funext i
  obtain ⟨b, t, c, rfl⟩ : ∃ (b : Fin 2) (t : Fin 2048) (c : Fin 1024), i = ix3 b t c := ⟨i 0, i 1, i 2, eq_ix3 i⟩
  rw [val_main_v29_apply, val_main_v26_apply, val_main_v28_apply, val_main_v27_apply, idx_v27_v28_ix3,
    Cert.Lib.MergeRows.split_apply rows_eq _ h2, affine_apply]
  simp only [lidx_v26_ix3, ridx_v26_ix3, val_main_v25_apply, merge_heads_apply]
  rfl

end Cert.Attn

end
-- ==== Proof.Bridge.lean ====
/-
  The reference's stages are the kernel's whole-array functions of the same five arguments. The reference projects on
  [2, 2048, ·] arrays where the kernel works on the 4096 merged rows; a reshape keeps the row-major position, so after
  the split into heads the two projections are one array, and queries, keys and values follow by the same transposition
  and slices. The reference's softmax is the attention weights, its second batched product the weights applied to the
  values, and its output projection the kernel's on merged rows.
-/
import proofs.«152384_j17437567222132_2_alg».proof.Proof.KernelTerms
import proofs.«152384_j17437567222132_2_alg».proof.Proof.RefAttn
import proofs.«152384_j17437567222132_2_alg».proof.Proof.RefProj

noncomputable section

namespace Cert.Attn

open Idealize.ShloMosaic Cert.ReferenceIdeal Cert.ReferenceIdeal.Read

variable (x0 : (⟨S2x2048x1024, .f32⟩ : BufTy).Contents (Elt Ideal)) (x1 : (⟨S1024x3072, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-- The projection split into heads with the head axis forward. -/
theorem ref_heads : val_main_v5 (F := Ideal) x0 x1 x2 = KTerms.headsArr x0 x1 x2 := by
  unfold KTerms.headsArr KTerms.projRows
  show transpose _ _ (val_main_v4 (F := Ideal) x0 x1 x2) _ = _
  rw [ref_qkv x0 x1 x2 Cert.KernelIdeal.Gen.shapeCasts_S2x2048x1024_S4096x1024 Cert.KernelIdeal.Gen.shapeCasts_S4096x3072_S2x2048x16x192]
  rfl

theorem ref_queries : val_main_v6 (F := Ideal) x0 x1 x2 = KTerms.queries x0 x1 x2 := by
  unfold KTerms.queries
  rw [← ref_heads]
  rfl

theorem ref_keys : val_main_v7 (F := Ideal) x0 x1 x2 = KTerms.keys x0 x1 x2 := by
  unfold KTerms.keys
  rw [← ref_heads]
  rfl

theorem ref_values : val_main_v8 (F := Ideal) x0 x1 x2 = KTerms.values x0 x1 x2 := by
  unfold KTerms.values
  rw [← ref_heads]
  rfl

/-- The reference's softmax is the attention weights of the kernel's queries against its keys. -/
theorem ref_weights : val_main_v22 (F := Ideal) x0 x1 x2 = KTerms.weights x0 x1 x2 := by
  unfold KTerms.weights
  rw [ref_attn, ref_queries, ref_keys]

/-- The reference's second batched product is those weights applied to the values. -/
theorem ref_weighted : val_main_v23 (F := Ideal) x0 x1 x2 = KTerms.weighted x0 x1 x2 := by
  unfold KTerms.weighted
  rw [ref_vals, ref_weights, ref_values]

/-- The reference's first result is the kernel's output projection of the weighted values as rows. -/
theorem ref_result : val_main_v29 (F := Ideal) x0 x1 x2 x3 x4 = KTerms.outArr x0 x1 x2 x3 x4 := by
  unfold KTerms.outArr
  rw [ref_out x0 x1 x2 x3 x4 Cert.KernelIdeal.Gen.shapeCasts_S2x2048x16x64_S4096x1024 Cert.KernelIdeal.Gen.shapeCasts_S4096x1024_S2x2048x1024]
  show shapeCast _ (affine (shapeCast _ (transpose _ _ (val_main_v23 (F := Ideal) x0 x1 x2) _) _) x3 x4) _ = _
  rw [ref_weighted]
  rfl

end Cert.Attn

end
-- ==== Proof.lean ====
/-
  A multi-head attention block (batch 2, sequence 2048, width 1024, sixteen heads of 64) as three kernels — the
  query/key/value projection on 512-row blocks of the 4096 merged rows, attention per head and 512-row query block
  with the head's whole key and value slabs, the output projection on 512-row blocks — against the same block written
  with whole-array products, a softmax and reshapes.

  On the extended reals, where a change of float format is the identity, both programs compute one function of the
  five arguments, index by index: the projection x W + b; its rows split into heads and cut into queries, keys and
  values; the weights exp (s - max s) / sum exp (s - max s) of the scores s = q k / 8, the row maximum taken from
  minus infinity; the weights applied to the values; and the output projection of those, as rows. The kernels differ
  from the reference only in where the sums are cut into blocks and in working on merged rows, and a reshape keeps
  the row-major position; the scale 1/8 is the same exact binary number in both. No law of the extended reals beyond
  reading each sum term by term is used, so the finiteness of the inputs is not needed for the equality.

  Each region's output array is read off the run's proof data as that function of the region's entry arrays
  (Region0, Region1 over Body1, Region2); the contents between the regions are read back through the stretches of
  host operations (KernelFold, KernelValue) from the run of the program's seven segments (KernelRun); the reference's
  run is read one operation at a time (RefAttn, RefProj, Bridge). The word-level kernel and its idealization are the
  same text read at two float models, so nothing is owed for the idealization.
-/
import proofs.«152384_j17437567222132_2_alg».proof.Defs
import proofs.«152384_j17437567222132_2_alg».proof.Proof.Gen.Kernel
import proofs.«152384_j17437567222132_2_alg».proof.Proof.Gen.Kernel.Skeleton
import proofs.«152384_j17437567222132_2_alg».proof.Proof.Gen.Kernel.Launch
import proofs.«152384_j17437567222132_2_alg».proof.Proof.Gen.Kernel.Points
import proofs.«152384_j17437567222132_2_alg».proof.Proof.Gen.Kernel.Frame
import proofs.«152384_j17437567222132_2_alg».proof.Proof.Gen.KernelIdeal
import proofs.«152384_j17437567222132_2_alg».proof.Proof.Gen.KernelIdeal.Skeleton
import proofs.«152384_j17437567222132_2_alg».proof.Proof.Gen.KernelIdeal.Launch
import proofs.«152384_j17437567222132_2_alg».proof.Proof.Gen.KernelIdeal.Points
import proofs.«152384_j17437567222132_2_alg».proof.Proof.Gen.KernelIdeal.Frame
import proofs.«152384_j17437567222132_2_alg».proof.Proof.Gen.ReferenceIdeal
import proofs.«152384_j17437567222132_2_alg».proof.Proof.Gen.ReferenceIdeal.Run
import proofs.«152384_j17437567222132_2_alg».proof.Proof.Gen.ReferenceIdeal.Read
import proofs.«152384_j17437567222132_2_alg».proof.Proof.Gen.Pre_finite_inputs
import proofs.«152384_j17437567222132_2_alg».proof.Proof.KernelRun
import proofs.«152384_j17437567222132_2_alg».proof.Proof.KernelValue
import proofs.«152384_j17437567222132_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The two idealized programs, from memories that agree on the five arguments, both end with the output projection
    of the weighted values and with the attention weights, as functions of those arguments. -/
theorem algebraic : Cert.algebraic_KernelIdeal_ReferenceIdeal := by
  intro m ρ m' ρ' _ hagree
  refine ⟨fun c => Cert.Attn.KTerms.outArr
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
      fun c => Cert.Attn.KTerms.weights
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Attn.KRun.out_value m ρ c), (h c).2.1.trans (Cert.Attn.KRun.weights_value m ρ c), (h c).2.2⟩)
      (Cert.Attn.KRun.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v29_eq, (hagree c).1, (hagree c).2.1, (hagree c).2.2.1, (hagree c).2.2.2.1,
        (hagree c).2.2.2.2]
      exact Cert.Attn.ref_result _ _ _ _ _
    · rw [Cert.ReferenceIdeal.Read.val_main_v22_eq, (hagree c).1, (hagree c).2.1, (hagree c).2.2.1]
      exact Cert.Attn.ref_weights _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
